-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1 : Shape := ⟨2, ![8192, 1]⟩
abbrev S8192x2 : Shape := ⟨2, ![8192, 2]⟩
abbrev S_ : Shape := ⟨0, ![]⟩

class Facts : Prop where
  bcast_S_S8192x1 : S_.BroadcastsInDim S8192x1 (![] : Fin 0 → Fin S8192x1.rank)
  reducesTo_S8192x1_S_d0_1 : S8192x1.ReducesTo [0, 1] S_
  h_S_ : 0 < S_.numel
  bcast_S_S8192x2 : S_.BroadcastsInDim S8192x2 (![] : Fin 0 → Fin S8192x2.rank)
  reducesTo_S8192x2_S_d0_1 : S8192x2.ReducesTo [0, 1] S_

variable [Facts]

def fn {F : FTy → Type} [FloatOps F] (main_arg0 : FVec F S8192x1 .f32) (main_arg1 : FVec F S8192x2 .f32) : IVec S_ 1 :=
  let main_v0 : FVec F S8192x1 .f32 := Host.absf main_arg0
  let main_cst : FVec F S_ .f32 := constant S_ .f32 0x7F800000#32
  let main_v1 : FVec F S8192x1 .f32 := broadcastInDim S8192x1 ![] bcast_S_S8192x1 main_cst
  let main_v2 : IVec S8192x1 1 := cmpf .olt main_v0 main_v1
  let main_c : IVec S_ 1 := constantI S_ 1 1#1
  let main_v3 : IVec S_ 1 := (fun x v => Host.reduce IntOp.andi x v reducesTo_S8192x1_S_d0_1 h_S_) main_v2 main_c
  let main_v4 : FVec F S8192x2 .f32 := Host.absf main_arg1
  let main_cst_0 : FVec F S_ .f32 := constant S_ .f32 0x7F800000#32
  let main_v5 : FVec F S8192x2 .f32 := broadcastInDim S8192x2 ![] bcast_S_S8192x2 main_cst_0
  let main_v6 : IVec S8192x2 1 := cmpf .olt main_v4 main_v5
  let main_c_1 : IVec S_ 1 := constantI S_ 1 1#1
  let main_v7 : IVec S_ 1 := (fun x v => Host.reduce IntOp.andi x v reducesTo_S8192x2_S_d0_1 h_S_) main_v6 main_c_1
  let main_v8 : IVec S_ 1 := andi main_v3 main_v7
  main_v8
-- ==== Kernel.lean ====
abbrev S8192x1 : Shape := ⟨2, ![8192, 1]⟩
abbrev S8192x2 : Shape := ⟨2, ![8192, 2]⟩
abbrev S8192 : Shape := ⟨1, ![8192]⟩
abbrev S1x8192 : Shape := ⟨2, ![1, 8192]⟩
abbrev S16x1x128 : Shape := ⟨3, ![16, 1, 128]⟩
abbrev S512x1 : Shape := ⟨2, ![512, 1]⟩
abbrev S1x2048 : Shape := ⟨2, ![1, 2048]⟩
abbrev S1x1x128 : Shape := ⟨3, ![1, 1, 128]⟩
abbrev S1x128 : Shape := ⟨2, ![1, 128]⟩
abbrev S512x2048 : Shape := ⟨2, ![512, 2048]⟩
abbrev S512 : Shape := ⟨1, ![512]⟩
abbrev S1 : Shape := ⟨1, ![1]⟩
abbrev S1x1 : Shape := ⟨2, ![1, 1]⟩
abbrev S16x1x1 : Shape := ⟨3, ![16, 1, 1]⟩
abbrev S16 : Shape := ⟨1, ![16]⟩
abbrev S_ : Shape := ⟨0, ![]⟩

abbrev nBuf : Space → Nat
  | .hbm => 43
  | .vmem => 16
  | .smem => 0
  | _ => 0

abbrev bufTy : (tb : Table) → Fin (tcTables nBuf tb) → BufTy
  | .hbm, ⟨0, _⟩ => ⟨S8192x1, .f32⟩
  | .hbm, ⟨1, _⟩ => ⟨S8192x2, .f32⟩
  | .hbm, ⟨2, _⟩ => ⟨S8192, .f32⟩
  | .hbm, ⟨3, _⟩ => ⟨S8192x1, .f32⟩
  | .hbm, ⟨4, _⟩ => ⟨S8192, .f32⟩
  | .hbm, ⟨5, _⟩ => ⟨S8192x1, .f32⟩
  | .hbm, ⟨6, _⟩ => ⟨S8192, .f32⟩
  | .hbm, ⟨7, _⟩ => ⟨S8192x1, .f32⟩
  | .hbm, ⟨8, _⟩ => ⟨S1x8192, .f32⟩
  | .hbm, ⟨9, _⟩ => ⟨S8192x1, .f32⟩
  | .hbm, ⟨10, _⟩ => ⟨S1x8192, .f32⟩
  | .hbm, ⟨11, _⟩ => ⟨S8192x1, .f32⟩
  | .hbm, ⟨12, _⟩ => ⟨S16x1x128, .f32⟩
  | .hbm, ⟨13, _⟩ => ⟨S16x1x128, .f32⟩
  | .hbm, ⟨14, _⟩ => ⟨S16x1x1, .f32⟩
  | .hbm, ⟨15, _⟩ => ⟨S16, .f32⟩
  | .hbm, ⟨16, _⟩ => ⟨S_, .f32⟩
  | .hbm, ⟨17, _⟩ => ⟨S_, .f32⟩
  | .hbm, ⟨18, _⟩ => ⟨S16x1x1, .f32⟩
  | .hbm, ⟨19, _⟩ => ⟨S16, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S8192, .f32⟩
  | .hbm, ⟨26, _⟩ => ⟨S_, .f32⟩
  | .hbm, ⟨27, _⟩ => ⟨S8192, .f32⟩
  | .hbm, ⟨28, _⟩ => ⟨S8192, .i1⟩
  | .hbm, ⟨29, _⟩ => ⟨S_, .f32⟩
  | .hbm, ⟨30, _⟩ => ⟨S8192, .f32⟩
  | .hbm, ⟨31, _⟩ => ⟨S8192, .f32⟩
  | .hbm, ⟨32, _⟩ => ⟨S8192, .f32⟩
  | .hbm, ⟨33, _⟩ => ⟨S8192, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .local _ .vmem, ⟨0, _⟩ => ⟨S512x1, .f32⟩
  | .local _ .vmem, ⟨1, _⟩ => ⟨S512x1, .f32⟩
  | .local _ .vmem, ⟨2, _⟩ => ⟨S1x2048, .f32⟩
  | .local _ .vmem, ⟨3, _⟩ => ⟨S1x2048, .f32⟩
  | .local _ .vmem, ⟨4, _⟩ => ⟨S512x1, .f32⟩
  | .local _ .vmem, ⟨5, _⟩ => ⟨S512x1, .f32⟩
  | .local _ .vmem, ⟨6, _⟩ => ⟨S1x2048, .f32⟩
  | .local _ .vmem, ⟨7, _⟩ => ⟨S1x2048, .f32⟩
  | .local _ .vmem, ⟨8, _⟩ => ⟨S512x1, .f32⟩
  | .local _ .vmem, ⟨9, _⟩ => ⟨S512x1, .f32⟩
  | .local _ .vmem, ⟨10, _⟩ => ⟨S1x1x128, .f32⟩
  | .local _ .vmem, ⟨11, _⟩ => ⟨S1x1x128, .f32⟩
  | .local _ .vmem, ⟨12, _⟩ => ⟨S1x1x128, .f32⟩
  | .local _ .vmem, ⟨13, _⟩ => ⟨S1x1x128, .f32⟩
  | .local _ .vmem, ⟨14, _⟩ => ⟨S1x128, .f32⟩
  | .local _ .vmem, ⟨15, _⟩ => ⟨S1x128, .f32⟩
  | _, _ => ⟨S8192x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10_0 : Ref sig .tc := ⟨.hbm, 12, rfl⟩
abbrev main_v10_1 : Ref sig .tc := ⟨.hbm, 13, rfl⟩
abbrev main_v11 : Ref sig .tc := ⟨.hbm, 14, rfl⟩
abbrev main_v12 : Ref sig .tc := ⟨.hbm, 15, rfl⟩
abbrev main_cst : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst_0 : Ref sig .tc := ⟨.hbm, 20, rfl⟩
abbrev main_v16 : Ref sig .tc := ⟨.hbm, 21, rfl⟩
abbrev main_cst_1 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_cst_3 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_4 : Ref sig .tc := ⟨.hbm, 34, rfl⟩
abbrev main_v26 : Ref sig .tc := ⟨.hbm, 35, rfl⟩
abbrev main_cst_5 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩
abbrev main_cst_7 : Ref sig .tc := ⟨.hbm, 40, rfl⟩
abbrev main_v29 : Ref sig .tc := ⟨.hbm, 41, rfl⟩
abbrev main_v30 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 4], ![false, false]⟩

def k0_cond2 (i : grid0.Coords) : BitVec 1 :=
  let arg1 : BitVec 32 := BitVec.ofNat 32 (i 1).val
  let c3_i32 : BitVec 32 := 3#32
  let v54 : BitVec 1 := Scalar.cmpi .eq arg1 c3_i32
  let v55 : BitVec 32 := Scalar.extui v54
  let c0_i32_25 : BitVec 32 := 0#32
  let v56 : BitVec 1 := Scalar.cmpi .ne v55 c0_i32_25
  v56

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  shapeCasts_S8192x1_S8192 : S8192x1.ShapeCasts S8192
  slices_S8192x2_S8192x1_0_0 : S8192x2.Slices ![0, 0] S8192x1
  slices_S8192x2_S8192x1_0_1 : S8192x2.Slices ![0, 1] S8192x1
  shapeCasts_S8192_S8192x1 : S8192.ShapeCasts S8192x1
  shapeCasts_S8192_S1x8192 : S8192.ShapeCasts S1x8192
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  broadcasts_S512x1_S512x2048 : S512x1.Broadcasts S512x2048
  reduces_S512x2048_S512 : S512x2048.Reduces [1] S512
  shapeCasts_S512_S512x1 : S512.ShapeCasts S512x1
  natLt_1_32 : 1 < 32
  reduces_S512x1_S1 : S512x1.Reduces [0] S1
  shapeCasts_S1_S1x1 : S1.ShapeCasts S1x1
  broadcasts_S1x1_S1x128 : S1x1.Broadcasts S1x128
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  shapeCasts_S1x128_S1x1x128 : S1x128.ShapeCasts S1x1x128
  slices_S16x1x128_S16x1x1_0_0_0 : S16x1x128.Slices ![0, 0, 0] S16x1x1
  shapeCasts_S16x1x1_S16 : S16x1x1.ShapeCasts S16
  reducesTo_S16_S_d0 : S16.ReducesTo [0] S_
  h_S_ : 0 < S_.numel
  bcast_S_S8192 : S_.BroadcastsInDim S8192 (![] : Fin 0 → Fin S8192.rank)
  reducesTo_S8192_S_d0 : S8192.ReducesTo [0] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1.size a ≤ S8192x1.size a
  hwx0_0 : ∀ i : grid0.Coords, EltTy.bits .f32 = 32 ∨ (Rect.block (s := S8192x1) S512x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048.size a ≤ S1x8192.size a
  hwx0_1 : ∀ i : grid0.Coords, EltTy.bits .f32 = 32 ∨ (Rect.block (s := S1x8192) S1x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S8192x1.size a
  hwx0_2 : ∀ i : grid0.Coords, EltTy.bits .f32 = 32 ∨ (Rect.block (s := S8192x1) S512x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x8192.size a
  hwx0_3 : ∀ i : grid0.Coords, EltTy.bits .f32 = 32 ∨ (Rect.block (s := S1x8192) S1x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1.size a ≤ S8192x1.size a
  hwx0_4 : ∀ i : grid0.Coords, EltTy.bits .f32 = 32 ∨ (Rect.block (s := S8192x1) S512x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x128.size a ≤ S16x1x128.size a
  hwx0_5 : ∀ i : grid0.Coords, EltTy.bits .f32 = 32 ∨ (Rect.block (s := S16x1x128) S1x1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x128.size a ≤ S16x1x128.size a
  hwx0_6 : ∀ i : grid0.Coords, EltTy.bits .f32 = 32 ∨ (Rect.block (s := S16x1x128) S1x1x128.size (cc0_transform_6 i) (hinb0_6 i)).WholeWords (EltTy.packing .f32)

variable [Facts₀]

abbrev win0_0 : Pipeline.Window sig grid0 :=
  Pipeline.Window.ofSpec (Memref.whole main_v5) S512x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S1x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v9) S512x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v10_0) S1x1x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v10_1) S1x1x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun i => !(k0_cond2 i == 1#1) | 6 => fun i => !(k0_cond2 i == 1#1) | ⟨_ + 7, h⟩ => absurd h (Nat.not_lt.2 (Nat.le_add_left _ _))

class Facts : Prop extends Facts₀ where

variable [Facts]
-- ==== ReferenceIdeal.lean ====
abbrev S8192x1 : Shape := ⟨2, ![8192, 1]⟩
abbrev S8192x2 : Shape := ⟨2, ![8192, 2]⟩
abbrev S8192 : Shape := ⟨1, ![8192]⟩
abbrev S_ : Shape := ⟨0, ![]⟩
abbrev S1x8192 : Shape := ⟨2, ![1, 8192]⟩
abbrev S8192x8192 : Shape := ⟨2, ![8192, 8192]⟩

abbrev nBuf : Space → Nat
  | .hbm => 61
  | .vmem => 0
  | .smem => 0
  | _ => 0

abbrev bufTy : (tb : Table) → Fin (tcTables nBuf tb) → BufTy
  | .hbm, ⟨0, _⟩ => ⟨S8192x1, .f32⟩
  | .hbm, ⟨1, _⟩ => ⟨S8192x2, .f32⟩
  | .hbm, ⟨2, _⟩ => ⟨S8192, .f32⟩
  | .hbm, ⟨3, _⟩ => ⟨S8192x1, .f32⟩
  | .hbm, ⟨4, _⟩ => ⟨S8192, .f32⟩
  | .hbm, ⟨5, _⟩ => ⟨S8192x1, .f32⟩
  | .hbm, ⟨6, _⟩ => ⟨S8192, .f32⟩
  | .hbm, ⟨7, _⟩ => ⟨S8192, .f32⟩
  | .hbm, ⟨8, _⟩ => ⟨S_, .f32⟩
  | .hbm, ⟨9, _⟩ => ⟨S8192, .f32⟩
  | .hbm, ⟨10, _⟩ => ⟨S8192, .i1⟩
  | .hbm, ⟨11, _⟩ => ⟨S_, .f32⟩
  | .hbm, ⟨12, _⟩ => ⟨S8192, .f32⟩
  | .hbm, ⟨13, _⟩ => ⟨S8192, .f32⟩
  | .hbm, ⟨14, _⟩ => ⟨S8192, .f32⟩
  | .hbm, ⟨15, _⟩ => ⟨S8192, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S1x8192, .f32⟩
  | .hbm, ⟨21, _⟩ => ⟨S8192x1, .f32⟩
  | .hbm, ⟨22, _⟩ => ⟨S8192x8192, .f32⟩
  | .hbm, ⟨23, _⟩ => ⟨S8192x8192, .f32⟩
  | .hbm, ⟨24, _⟩ => ⟨S8192x8192, .i1⟩
  | .hbm, ⟨25, _⟩ => ⟨S8192x1, .f32⟩
  | .hbm, ⟨26, _⟩ => ⟨S_, .f32⟩
  | .hbm, ⟨27, _⟩ => ⟨S8192x1, .f32⟩
  | .hbm, ⟨28, _⟩ => ⟨S8192x1, .i1⟩
  | .hbm, ⟨29, _⟩ => ⟨S8192x8192, .i1⟩
  | .hbm, ⟨30, _⟩ => ⟨S8192x8192, .i1⟩
  | .hbm, ⟨31, _⟩ => ⟨S1x8192, .f32⟩
  | .hbm, ⟨32, _⟩ => ⟨S_, .f32⟩
  | .hbm, ⟨33, _⟩ => ⟨S1x8192, .f32⟩
  | .hbm, ⟨34, _⟩ => ⟨S1x8192, .f32⟩
  | .hbm, ⟨35, _⟩ => ⟨S8192x1, .f32⟩
  | .hbm, ⟨36, _⟩ => ⟨S8192x8192, .f32⟩
  | .hbm, ⟨37, _⟩ => ⟨S8192x8192, .f32⟩
  | .hbm, ⟨38, _⟩ => ⟨S8192x8192, .f32⟩
  | .hbm, ⟨39, _⟩ => ⟨S_, .f32⟩
  | .hbm, ⟨40, _⟩ => ⟨S8192x8192, .f32⟩
  | .hbm, ⟨41, _⟩ => ⟨S8192x8192, .f32⟩
  | .hbm, ⟨42, _⟩ => ⟨S8192x8192, .i32⟩
  | .hbm, ⟨43, _⟩ => ⟨S_, .i32⟩
  | .hbm, ⟨44, _⟩ => ⟨S_, .i32⟩
  | .hbm, ⟨45, _⟩ => ⟨S_, .i32⟩
  | .hbm, ⟨46, _⟩ => ⟨S_, .i32⟩
  | .hbm, ⟨47, _⟩ => ⟨S_, .f32⟩
  | .hbm, ⟨48, _⟩ => ⟨S8192x8192, .f32⟩
  | .hbm, ⟨49, _⟩ => ⟨S_, .f32⟩
  | .hbm, ⟨50, _⟩ => ⟨S_, .f32⟩
  | .hbm, ⟨51, _⟩ => ⟨S8192x8192, .f32⟩
  | .hbm, ⟨52, _⟩ => ⟨S8192x8192, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | _, _ => ⟨S8192x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_3 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_4 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_cst_5 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_c : Ref sig .tc := ⟨.hbm, 43, rfl⟩
abbrev main_v34 : Ref sig .tc := ⟨.hbm, 44, rfl⟩
abbrev main_c_6 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_7 : Ref sig .tc := ⟨.hbm, 49, rfl⟩
abbrev main_call1_v0 : Ref sig .tc := ⟨.hbm, 50, rfl⟩
abbrev main_call1_v1 : Ref sig .tc := ⟨.hbm, 51, rfl⟩
abbrev main_v38 : Ref sig .tc := ⟨.hbm, 52, rfl⟩
abbrev main_cst_8 : Ref sig .tc := ⟨.hbm, 53, rfl⟩
abbrev main_v39 : Ref sig .tc := ⟨.hbm, 54, rfl⟩
abbrev main_v40 : Ref sig .tc := ⟨.hbm, 55, rfl⟩
abbrev main_cst_9 : Ref sig .tc := ⟨.hbm, 56, rfl⟩
abbrev main_v41 : Ref sig .tc := ⟨.hbm, 57, rfl⟩
abbrev main_cst_10 : Ref sig .tc := ⟨.hbm, 58, rfl⟩
abbrev main_v42 : Ref sig .tc := ⟨.hbm, 59, rfl⟩
abbrev main_v43 : Ref sig .tc := ⟨.hbm, 60, rfl⟩

abbrev nD : Nat := 1
abbrev τ : Topo := Topo.v7x

variable {F : FTy → Type} [FloatOps F]

class Facts₀ : Prop where
  shapeCasts_S8192x1_S8192 : S8192x1.ShapeCasts S8192
  slices_S8192x2_S8192x1_0_0 : S8192x2.Slices ![0, 0] S8192x1
  slices_S8192x2_S8192x1_0_1 : S8192x2.Slices ![0, 1] S8192x1
  bcast_S_S8192 : S_.BroadcastsInDim S8192 (![] : Fin 0 → Fin S8192.rank)
  reducesTo_S8192_S_d0 : S8192.ReducesTo [0] S_
  h_S_ : 0 < S_.numel
  bcast_S8192_S1x8192_1 : S8192.BroadcastsInDim S1x8192 (![1] : Fin 1 → Fin S1x8192.rank)
  bcast_S8192_S8192x1_0 : S8192.BroadcastsInDim S8192x1 (![0] : Fin 1 → Fin S8192x1.rank)
  bcast_S1x8192_S8192x8192_0_1 : S1x8192.BroadcastsInDim S8192x8192 (![0, 1] : Fin 2 → Fin S8192x8192.rank)
  bcast_S8192x1_S8192x8192_0_1 : S8192x1.BroadcastsInDim S8192x8192 (![0, 1] : Fin 2 → Fin S8192x8192.rank)
  bcast_S_S8192x1 : S_.BroadcastsInDim S8192x1 (![] : Fin 0 → Fin S8192x1.rank)
  bcast_S_S1x8192 : S_.BroadcastsInDim S1x8192 (![] : Fin 0 → Fin S1x8192.rank)
  bcast_S_S8192x8192 : S_.BroadcastsInDim S8192x8192 (![] : Fin 0 → Fin S8192x8192.rank)
  natLt_1_32 : 1 < 32
  reducesTo_S8192x8192_S_d0_1 : S8192x8192.ReducesTo [0, 1] S_

variable [Facts₀]

class Facts : Prop extends Facts₀ where

variable [Facts]
-- ==== Proof.PairSpec.lean ====
/-
  The quantity both programs compute, stated over three vectors of extended reals of length 8192
  (scores p, times t, event flags e). An ordered pair (i, j) counts when t j > t i and e i = 1. The
  ranking term is the sum of max (1 - p j + p i, 0)^2 over the counted pairs divided by the number of
  counted pairs (at least 1).

  One program forms the sum over all 8192 x 8192 pairs at once, with the two conditions joined in one
  mask, and counts the pairs with a 32-bit integer sum. The other walks 16 x 4 tiles of 512 rows by
  2048 columns: per tile and row it sums the squared hinges of the later columns, multiplies that row
  sum by the row's 0/1 event flag, and adds the rows; it counts with the same sums of 0/1 reals. Both
  ways of writing the two totals are named here, so that the laws joining them can be stated once.
-/
import Idealize.ShloMosaic.PureOps.Ideal
import Idealize.ShloMosaic.Lib.ValueIdx

noncomputable section

namespace Cert.PairSpec

open Idealize.ShloMosaic

/-- The f32 word of 1.0, read as an extended real. -/
abbrev one : EReal := FloatOps.ofBits (F := Ideal) .f32 0x3F800000#32
/-- The f32 word of 0.0, read as an extended real. -/
abbrev zero : EReal := FloatOps.ofBits (F := Ideal) .f32 0x00000000#32

section
variable (p t e : Fin 8192 → EReal)

/-- 1 when time j is later than time i. -/
def later (i j : Fin 8192) : BitVec 1 := FloatOps.cmpf (F := Ideal) (φ := .f32) .ogt (t j) (t i)

/-- 1 when sample i's event flag equals 1. -/
def seen (i : Fin 8192) : BitVec 1 := FloatOps.cmpf (F := Ideal) (φ := .f32) .oeq (e i) one

/-- 1 when the ordered pair (i, j) counts: j is later than i and i's event is seen. -/
def counts (i j : Fin 8192) : BitVec 1 := IntOp.andi (later t i j) (seen e i)

/-- The hinge max (1 - p j + p i, 0). -/
def hinge (i j : Fin 8192) : EReal :=
  FloatOps.maximumf (F := Ideal) (φ := .f32) (FloatOps.addf (F := Ideal) (φ := .f32) (FloatOps.subf (F := Ideal) (φ := .f32) one (p j)) (p i)) zero

/-- The squared hinge. -/
def sqHinge (i j : Fin 8192) : EReal := FloatOps.mulf (F := Ideal) (φ := .f32) (hinge p i j) (hinge p i j)

/-- The sum of the squared hinges over the counted pairs. -/
def hingeSum : EReal := ∑ i : Fin 8192, ∑ j : Fin 8192, Scalar.select (counts t e i j) (sqHinge p i j) zero

/-- The number of counted pairs. -/
def pairCount : ℕ := ∑ i : Fin 8192, ∑ j : Fin 8192, (counts t e i j).toNat

/-- The tiled program's cell of the hinge total: the squared hinge where j is later than i, else 0 (the event flag is
    applied to the row sum afterwards). -/
def laterHinge (i j : Fin 8192) : EReal := Scalar.select (later t i j) (sqHinge p i j) zero

/-- The tiled program's cell of the count: 1 where j is later than i, else 0, as a real. -/
def laterUnit (i j : Fin 8192) : EReal := FloatOps.sitofp (F := Ideal) .f32 ((later t i j).setWidth 32)

/-- Sample i's event flag as a 0/1 real. -/
def flag (i : Fin 8192) : EReal := FloatOps.sitofp (F := Ideal) .f32 ((seen e i).setWidth 32)

end

/-- The scores: the one column of the 8192-by-1 argument. -/
def scores (x0 : (⟨2, ![8192, 1]⟩ : Shape).Idx → EReal) : Fin 8192 → EReal := fun i => x0 (ValueIdx.ix2 i (0 : Fin 1))

/-- The times: column 0 of the 8192-by-2 argument. -/
def times (x1 : (⟨2, ![8192, 2]⟩ : Shape).Idx → EReal) : Fin 8192 → EReal := fun i => x1 (ValueIdx.ix2 i (0 : Fin 2))

/-- The event flags: column 1 of the 8192-by-2 argument. -/
def events (x1 : (⟨2, ![8192, 2]⟩ : Shape).Idx → EReal) : Fin 8192 → EReal := fun i => x1 (ValueIdx.ix2 i (1 : Fin 2))

/-- Row r of row tile I. -/
def row (I : Fin 16) (r : Fin 512) : Fin 8192 := ⟨512 * I.val + r.val, by have := I.isLt; have := r.isLt; omega⟩

/-- Column c of column tile J. -/
def col (J : Fin 4) (c : Fin 2048) : Fin 8192 := ⟨2048 * J.val + c.val, by have := J.isLt; have := c.isLt; omega⟩

/-- What tile (I, J) contributes: per row the sum of the cells over the tile's columns times the row's weight, summed
    over the tile's rows. -/
def tileTotal (f : Fin 8192 → Fin 8192 → EReal) (w : Fin 8192 → EReal) (I : Fin 16) (J : Fin 4) : EReal :=
  ∑ r : Fin 512, (∑ c : Fin 2048, f (row I r) (col J c)) * w (row I r)

/-- The total over all tiles. -/
def tiledTotal (f : Fin 8192 → Fin 8192 → EReal) (w : Fin 8192 → EReal) : EReal :=
  ∑ I : Fin 16, ∑ J : Fin 4, tileTotal f w I J

end Cert.PairSpec

end
-- ==== Proof.LibBlockSum.lean ====
import Mathlib.Algebra.BigOperators.Fin
import Mathlib.Algebra.BigOperators.Group.Finset.Basic
import Mathlib.Logic.Equiv.Fin.Basic

/-!
# Sums taken block by block, and running totals

A sum over T·R entries is the sum over T blocks of the sums over the R entries of each block, entry r of block t being
entry R·t + r. A running total that starts at the first block's sum and adds one block's sum per step is, after
step n, the sum of the first n + 1 blocks' sums.
-/

open Finset

namespace Cert.LibBlockSum

variable {M : Type*} [AddCommMonoid M]

/-- A sum over T·R entries, taken block by block. -/
theorem sum_by_blocks (T R : ℕ) (f : Fin (T * R) → M) :
    ∑ i, f i = ∑ t : Fin T, ∑ r : Fin R, f (finProdFinEquiv (t, r)) := by
  rw [← Fintype.sum_prod_type']
  exact (Equiv.sum_comp finProdFinEquiv f).symm

/-- Entry r of block t is entry R·t + r. -/
theorem block_entry_val {T R : ℕ} (t : Fin T) (r : Fin R) : (finProdFinEquiv (t, r)).val = r.val + R * t.val := rfl

/-- The same with the entries numbered 0 … N − 1 for N = T·R: entry r of block t is entry R·t + r. -/
theorem sum_by_blocks_of_eq (T R N : ℕ) (hN : T * R = N) (f : Fin N → M) :
    ∑ i, f i = ∑ t : Fin T, ∑ r : Fin R, f ⟨R * t.val + r.val, by
      have h := (finProdFinEquiv (t, r)).isLt
      rw [show (finProdFinEquiv (t, r)).val = r.val + R * t.val from rfl] at h
      omega⟩ := by
  subst hN
  rw [sum_by_blocks T R f]
  refine Finset.sum_congr rfl fun t _ => Finset.sum_congr rfl fun r _ => congrArg f (Fin.ext ?_)
  exact Nat.add_comm _ _

/-- A running total after step n is the sum of the first n + 1 terms. -/
theorem running_total (s g : ℕ → M) (h0 : s 0 = g 0) (hs : ∀ n, s (n + 1) = s n + g (n + 1)) (n : ℕ) :
    s n = ∑ k ∈ range (n + 1), g k := by
  induction n with
  | zero => rw [h0, Finset.sum_range_one]
  | succ n ih => rw [hs, ih, Finset.sum_range_succ _ (n + 1)]

/-- The same, for a recurrence that is only known below a bound N. -/
theorem running_total_below (N : ℕ) (s g : ℕ → M) (h0 : s 0 = g 0) (hs : ∀ n, n + 1 < N → s (n + 1) = s n + g (n + 1))
    (n : ℕ) (hn : n < N) : s n = ∑ k ∈ range (n + 1), g k := by
  induction n with
  | zero => rw [h0, Finset.sum_range_one]
  | succ n ih => rw [hs n hn, ih (by omega), Finset.sum_range_succ _ (n + 1)]

end Cert.LibBlockSum
-- ==== Proof.PairLaws.lean ====
/-
  The laws that join the two ways of writing the pair totals of PairSpec.

  A one-bit word widened to 32 bits and read as a signed integer is the real 0 or 1, so the event flag and the
  "later" cell of the count are 0/1 reals. Multiplying by a 0/1 extended real is harmless at every extended real,
  the infinities included (x * 1 = x and x * 0 = 0), so a row sum times the row's flag is the sum of the cells times
  the flag, with no finiteness hypothesis. The rest is regrouping a finite sum in an additive commutative monoid:
  8192 = 16 * 512 rows and 8192 = 4 * 2048 columns, and the order of the row and column-tile sums is exchanged.
-/
import proofs.«158161_j49297634624085_2_alg».proof.Proof.PairSpec
import proofs.«158161_j49297634624085_2_alg».proof.Proof.LibBlockSum
import Idealize.ShloMosaic.PureOps.Ideal.Laws

noncomputable section

namespace Cert.PairLaws

open Cert.PairSpec Idealize.ShloMosaic

/-! ## The two constants -/

/-- The word of 0.0 denotes 0. -/
theorem zero_eq : PairSpec.zero = 0 := Ideal.ofBits_zero_f32

/-- The word of 1.0 denotes 1: sign 0, exponent 127 = bias, fraction 0, so 2^23 * 2^(127 - 127 - 23) = 1. -/
theorem one_eq : PairSpec.one = 1 := by
  show Ideal.ofBits .f32 0x3F800000#32 = 1
  simp [Ideal.ofBits, Ideal.ieee, -EReal.coe_mul]; norm_num

/-! ## One-bit words as 0/1 reals -/

/-- A one-bit word widened to 32 bits and read signed is the word's own value, 0 or 1. -/
private theorem bit_real (b : BitVec 1) :
    (FloatOps.sitofp (F := Ideal) .f32 (b.setWidth 32) : EReal) = ((b.toNat : ℝ) : EReal) := by
  have h : (b.setWidth 32).toInt = (b.toNat : ℤ) := by
    rcases BitVec.eq_zero_or_eq_one b with h | h <;> subst h <;> decide
  show (((b.setWidth 32).toInt : ℝ) : EReal) = _
  rw [h, Int.cast_natCast]

/-- The value of a one-bit word is 0 or 1. -/
private theorem bit_cases (b : BitVec 1) : ((b.toNat : ℝ) : EReal) = 0 ∨ ((b.toNat : ℝ) : EReal) = 1 := by
  rcases BitVec.eq_zero_or_eq_one b with h | h <;> subst h
  · left; simp
  · right; simp

/-- The bitwise and of two one-bit words has the product of their values. -/
private theorem andi_toNat (a b : BitVec 1) : (IntOp.andi a b).toNat = a.toNat * b.toNat := by
  rcases BitVec.eq_zero_or_eq_one a with ha | ha <;> rcases BitVec.eq_zero_or_eq_one b with hb | hb <;>
    subst ha <;> subst hb <;> decide

theorem flag_cases (e : Fin 8192 → EReal) (i : Fin 8192) : flag e i = 0 ∨ flag e i = 1 := by
  unfold flag
  rw [bit_real]
  exact bit_cases _

/-- A select on the bit a, times the value of the bit b, is the select on a and b: x * 1 = x and x * 0 = 0 at every
    extended real, and 0 * 1 = 0 * 0 = 0. -/
private theorem select_mul_bit (a b : BitVec 1) (x : EReal) :
    Scalar.select a x PairSpec.zero * ((b.toNat : ℝ) : EReal) = Scalar.select (IntOp.andi a b) x PairSpec.zero := by
  rw [zero_eq]
  rcases BitVec.eq_zero_or_eq_one a with ha | ha <;> rcases BitVec.eq_zero_or_eq_one b with hb | hb <;>
    subst ha <;> subst hb
  · rw [show IntOp.andi 0#1 0#1 = 0#1 by decide, ValueIdx.select_zero]; simp
  · rw [show IntOp.andi 0#1 1#1 = 0#1 by decide, ValueIdx.select_zero]; simp
  · rw [show IntOp.andi 1#1 0#1 = 0#1 by decide, ValueIdx.select_zero, ValueIdx.select_one]; simp
  · rw [show IntOp.andi 1#1 1#1 = 1#1 by decide, ValueIdx.select_one]; simp

theorem laterHinge_mul_flag (p t e : Fin 8192 → EReal) (i j : Fin 8192) :
    laterHinge p t i j * flag e i = Scalar.select (counts t e i j) (sqHinge p i j) PairSpec.zero := by
  unfold laterHinge flag counts
  rw [bit_real]
  exact select_mul_bit _ _ _

theorem laterUnit_mul_flag (t e : Fin 8192 → EReal) (i j : Fin 8192) :
    laterUnit t i j * flag e i = (((counts t e i j).toNat : ℝ) : EReal) := by
  unfold laterUnit flag counts
  rw [bit_real, bit_real, andi_toNat, Nat.cast_mul, EReal.coe_mul]

/-! ## A row sum times a 0/1 weight -/

/-- A finite sum times x is the sum of the terms times x when x is 0 or 1. (Multiplication does not distribute over
    sums of extended reals in general; at 0 and 1 it does, whatever the terms.) -/
private theorem sum_mul_unit {ι : Type} (s : Finset ι) (g : ι → EReal) (x : EReal) (hx : x = 0 ∨ x = 1) :
    (∑ c ∈ s, g c) * x = ∑ c ∈ s, g c * x := by
  rcases hx with h | h <;> subst h
  · simp only [mul_zero, Finset.sum_const_zero]
  · simp only [mul_one]

/-! ## The tiled total is the plain double sum -/

theorem tiledTotal_eq (f : Fin 8192 → Fin 8192 → EReal) (w : Fin 8192 → EReal) (hw : ∀ i, w i = 0 ∨ w i = 1) :
    tiledTotal f w = ∑ i : Fin 8192, ∑ j : Fin 8192, f i j * w i := by
  -- the columns of one row, taken as 4 tiles of 2048
  have hcols : ∀ i : Fin 8192,
      ∑ j : Fin 8192, f i j * w i = ∑ J : Fin 4, ∑ c : Fin 2048, f i (col J c) * w i := fun i =>
    (LibBlockSum.sum_by_blocks_of_eq 4 2048 8192 rfl (fun j => f i j * w i)).trans
      (Finset.sum_congr rfl fun J _ => Finset.sum_congr rfl fun c _ => rfl)
  -- the rows, taken as 16 tiles of 512
  have hrows : ∑ i : Fin 8192, ∑ j : Fin 8192, f i j * w i
      = ∑ I : Fin 16, ∑ r : Fin 512, ∑ j : Fin 8192, f (row I r) j * w (row I r) :=
    (LibBlockSum.sum_by_blocks_of_eq 16 512 8192 rfl (fun i => ∑ j : Fin 8192, f i j * w i)).trans
      (Finset.sum_congr rfl fun I _ => Finset.sum_congr rfl fun r _ => rfl)
  rw [hrows]
  unfold tiledTotal tileTotal
  refine Finset.sum_congr rfl fun I _ => ?_
  -- within a row tile: exchange the sum over column tiles with the sum over rows
  rw [Finset.sum_comm]
  refine Finset.sum_congr rfl fun r _ => ?_
  rw [hcols]
  exact Finset.sum_congr rfl fun J _ => sum_mul_unit _ _ _ (hw _)

theorem tiled_hingeSum (p t e : Fin 8192 → EReal) : tiledTotal (laterHinge p t) (flag e) = hingeSum p t e := by
  rw [tiledTotal_eq _ _ (flag_cases e)]
  exact Finset.sum_congr rfl fun i _ => Finset.sum_congr rfl fun j _ => laterHinge_mul_flag p t e i j

/-- A finite sum of naturals read as extended reals is the sum read as an extended real. -/
private theorem sum_coe_nat {ι : Type} (s : Finset ι) (g : ι → ℕ) :
    ∑ c ∈ s, (((g c : ℕ) : ℝ) : EReal) = (((∑ c ∈ s, g c : ℕ) : ℝ) : EReal) := by
  classical
  induction s using Finset.induction_on with
  | empty => simp
  | insert a s ha ih => rw [Finset.sum_insert ha, Finset.sum_insert ha, ih, Nat.cast_add, EReal.coe_add]

theorem tiled_pairCount (t e : Fin 8192 → EReal) :
    tiledTotal (laterUnit t) (flag e) = (((pairCount t e : ℕ) : ℝ) : EReal) := by
  rw [tiledTotal_eq _ _ (flag_cases e)]
  unfold pairCount
  rw [← sum_coe_nat]
  refine Finset.sum_congr rfl fun i _ => ?_
  rw [← sum_coe_nat]
  exact Finset.sum_congr rfl fun j _ => laterUnit_mul_flag t e i j

/-! ## The divisor -/

theorem max_count_one (n : ℕ) : max (((n : ℝ) : EReal)) PairSpec.one = (((max n 1 : ℕ) : ℝ) : EReal) := by
  -- the coercion of the reals into the extended reals is monotone, so it commutes with max
  rw [one_eq, Nat.cast_max, EReal.coe_strictMono.monotone.map_max, Nat.cast_one, EReal.coe_one]

end Cert.PairLaws

end
-- ==== Proof.RefSide.lean ====
/-
  What the reference program computes, read one stage at a time at an index and stated in the terms of the pair
  specification: its double sum is the sum of the squared hinges over the counted pairs, and its 32-bit count of the
  mask's ones, clamped below at 1 and converted, is the number of counted pairs (at least 1) as a real.
-/
import proofs.«158161_j49297634624085_2_alg».proof.Proof.Gen.ReferenceIdeal.Read
import proofs.«158161_j49297634624085_2_alg».proof.Proof.PairSpec
import Idealize.ShloMosaic.Lib.IndicatorCount
import Idealize.ShloMosaic.Lib.ValueIdx

noncomputable section

namespace Cert.RefSide

open Cert.ReferenceIdeal Cert.ReferenceIdeal.Read Cert.PairSpec Idealize.ShloMosaic Idealize.ShloMosaic.ValueIdx

/-! ## The layout stages at the pair (i, j): rows carry i, columns carry j -/

/-- The times broadcast along the rows read, at (i, j), time j. -/
private theorem timesCol_eq (x1 : (⟨S8192x2, .f32⟩ : BufTy).Contents (Elt Ideal)) (i j : Fin 8192) :
    val_main_v16 (F := Ideal) x1 (ix2 i j) = times x1 j := by
  rw [val_main_v16_apply, val_main_v14_apply, val_main_v2_apply, val_main_v1_apply]
  unfold times
  congr 1
  funext a
  match a with
  | ⟨0, _⟩ => exact Fin.ext (Nat.div_one _)
  | ⟨1, _⟩ => rfl

/-- The times broadcast along the columns read, at (i, j), time i. -/
private theorem timesRow_eq (x1 : (⟨S8192x2, .f32⟩ : BufTy).Contents (Elt Ideal)) (i j : Fin 8192) :
    val_main_v17 (F := Ideal) x1 (ix2 i j) = times x1 i := by
  rw [val_main_v17_apply, val_main_v15_apply, val_main_v2_apply, val_main_v1_apply]
  unfold times
  congr 1
  funext a
  match a with
  | ⟨0, _⟩ => exact Fin.ext (Nat.div_one _)
  | ⟨1, _⟩ => rfl

/-- The event test broadcast along the columns reads, at (i, j), whether sample i's event is seen. -/
private theorem seenRow_eq (x1 : (⟨S8192x2, .f32⟩ : BufTy).Contents (Elt Ideal)) (i j : Fin 8192) :
    val_main_v22 (F := Ideal) x1 (ix2 i j) = seen (events x1) i := by
  rw [val_main_v22_apply, val_main_v21_apply, val_main_v19_apply, val_main_v4_apply, val_main_v3_apply,
    val_main_v20_apply, val_main_cst_3_apply]
  unfold seen events
  congr 2
  funext a
  match a with
  | ⟨0, _⟩ => exact Fin.ext (Nat.div_one _)
  | ⟨1, _⟩ => rfl

/-- One minus the scores, broadcast along the rows, reads at (i, j) one minus score j. -/
private theorem oneSubCol_eq (x0 : (⟨S8192x1, .f32⟩ : BufTy).Contents (Elt Ideal)) (i j : Fin 8192) :
    val_main_v28 (F := Ideal) x0 (ix2 i j)
      = FloatOps.subf (F := Ideal) (φ := .f32) PairSpec.one (scores x0 j) := by
  rw [val_main_v28_apply, val_main_v26_apply, val_main_v25_apply, val_main_cst_4_apply, val_main_v24_apply,
    val_main_v0_apply]
  unfold scores
  congr 2
  funext a
  match a with
  | ⟨0, _⟩ => exact Fin.ext (Nat.div_one _)
  | ⟨1, _⟩ => rfl

/-- The scores broadcast along the columns read, at (i, j), score i. -/
private theorem scoreRow_eq (x0 : (⟨S8192x1, .f32⟩ : BufTy).Contents (Elt Ideal)) (i j : Fin 8192) :
    val_main_v29 (F := Ideal) x0 (ix2 i j) = scores x0 i := by
  rw [val_main_v29_apply, val_main_v27_apply, val_main_v0_apply]
  unfold scores
  congr 1
  funext a
  match a with
  | ⟨0, _⟩ => exact Fin.ext (Nat.div_one _)
  | ⟨1, _⟩ => rfl

/-! ## The mask and the masked squared hinge at the pair (i, j) -/

/-- The mask at (i, j) is the bit that says the pair counts. -/
private theorem mask_eq (x1 : (⟨S8192x2, .f32⟩ : BufTy).Contents (Elt Ideal)) (i j : Fin 8192) :
    val_main_v23 (F := Ideal) x1 (ix2 i j) = counts (times x1) (events x1) i j := by
  rw [val_main_v23_apply, val_main_v18_apply, timesCol_eq, timesRow_eq, seenRow_eq]
  rfl

/-- The squared hinge at (i, j). -/
private theorem sq_eq (x0 : (⟨S8192x1, .f32⟩ : BufTy).Contents (Elt Ideal)) (i j : Fin 8192) :
    val_main_v37 (F := Ideal) x0 (ix2 i j) = sqHinge (scores x0) i j := by
  rw [val_main_v37_apply, val_main_v32_apply, val_main_v30_apply, oneSubCol_eq, scoreRow_eq, val_main_v31_apply,
    val_main_cst_5_apply]
  rfl

/-- The summand at (i, j): the squared hinge where the pair counts, zero elsewhere. -/
private theorem cell_eq (x0 : (⟨S8192x1, .f32⟩ : BufTy).Contents (Elt Ideal))
    (x1 : (⟨S8192x2, .f32⟩ : BufTy).Contents (Elt Ideal)) (i j : Fin 8192) :
    val_main_v38 (F := Ideal) x0 x1 (ix2 i j)
      = Scalar.select (counts (times x1) (events x1) i j) (sqHinge (scores x0) i j) PairSpec.zero := by
  rw [val_main_v38_apply, mask_eq, sq_eq, val_main_call1_v1_apply, val_main_call1_v0_apply, val_main_cst_7_apply]

/-- The reference's double sum is the initial zero plus the sum of the squared hinges over the counted pairs. -/
theorem ref_hingeSum (x0 : (⟨S8192x1, .f32⟩ : BufTy).Contents (Elt Ideal)) (x1 : (⟨S8192x2, .f32⟩ : BufTy).Contents (Elt Ideal)) (i : S_.Idx) :
    val_main_v39 (F := Ideal) x0 x1 i = PairSpec.zero + hingeSum (scores x0) (times x1) (events x1) := by
  rw [val_main_v39_apply, val_main_cst_8_apply, sum_idx2]
  unfold hingeSum
  congr 1
  exact Finset.sum_congr rfl fun a _ => Finset.sum_congr rfl fun b _ => cell_eq x0 x1 a b

/-! ## The count: the 32-bit sum of the mask's ones is the number of counted pairs -/

/-- A one-bit word read as a number is 1 exactly when it is the word 1. -/
private theorem bit_toNat (b : BitVec 1) : (if b = 1#1 then 1 else 0) = b.toNat := by
  rcases BitVec.eq_zero_or_eq_one b with h | h <;> subst h <;> rfl

/-- The number of ones of the mask is the number of counted pairs. -/
private theorem ones_card (x1 : (⟨S8192x2, .f32⟩ : BufTy).Contents (Elt Ideal)) :
    (Finset.univ.filter fun k : S8192x8192.Idx => val_main_v23 (F := Ideal) x1 k = 1#1).card
      = pairCount (times x1) (events x1) := by
  rw [Finset.card_filter, sum_idx2]
  unfold pairCount
  exact Finset.sum_congr rfl fun a _ => Finset.sum_congr rfl fun b _ => by rw [mask_eq, bit_toNat]

/-- There are at most 8192 * 8192 counted pairs: each pair adds 0 or 1. -/
private theorem pairCount_le (t e : Fin 8192 → EReal) : pairCount t e ≤ 8192 * 8192 := by
  unfold pairCount
  calc ∑ i : Fin 8192, ∑ j : Fin 8192, (counts t e i j).toNat
      ≤ ∑ _i : Fin 8192, ∑ _j : Fin 8192, 1 :=
        Finset.sum_le_sum fun a _ => Finset.sum_le_sum fun b _ => by
          have := (counts t e a b).isLt
          omega
    _ = 8192 * 8192 := by
        simp only [Finset.sum_const, Finset.card_univ, Fintype.card_fin, smul_eq_mul, mul_one]

/-- The 32-bit sum of the widened mask bits, from zero, is the word of the number of counted pairs. -/
private theorem count_word (x1 : (⟨S8192x2, .f32⟩ : BufTy).Contents (Elt Ideal)) (i : S_.Idx) :
    val_main_v34 (F := Ideal) x1 i = BitVec.ofNat 32 (pairCount (times x1) (events x1)) := by
  unfold val_main_v34
  rw [Host.reduce_eq_fold, val_main_c_apply,
    Finset.filter_true_of_mem (fun k _ => (eq_ix0 _).trans (eq_ix0 _).symm)]
  show Finset.univ.fold IntOp.addi (0#32) (fun k => (val_main_v23 (F := Ideal) x1 k).setWidth 32) = _
  rw [IndicatorCount.fold_addi_setWidth_eq_card, ones_card]

/-- For a number n of at most 8192 * 8192 (below 2^31, so its 32-bit word read signed is n), the signed maximum of its
    word with the word 1 reads, signed, as max n 1. -/
private theorem toInt_maxsi_one (n : ℕ) (h : n ≤ 8192 * 8192) :
    (IntOp.maxsi (BitVec.ofNat 32 n) 1#32).toInt = ((max n 1 : ℕ) : ℤ) := by
  have hn : (BitVec.ofNat 32 n).toInt = (n : ℤ) := by
    rw [BitVec.toInt_eq_toNat_cond, BitVec.toNat_ofNat]
    split_ifs <;> omega
  have h1 : (1#32 : BitVec 32).toInt = 1 := by decide
  simp only [IntOp.maxsi, BitVec.slt, decide_eq_true_eq]
  split_ifs with hlt
  · rw [hn] at hlt ⊢
    rw [h1] at hlt
    omega
  · rw [hn, h1] at hlt
    rw [h1]
    omega

/-- The reference's divisor: the number of counted pairs, at least 1, as a real. -/
theorem ref_count (x1 : (⟨S8192x2, .f32⟩ : BufTy).Contents (Elt Ideal)) (i : S_.Idx) :
    val_main_v36 (F := Ideal) x1 i = (((max (pairCount (times x1) (events x1)) 1 : ℕ) : ℝ) : EReal) := by
  rw [val_main_v36_apply, val_main_v35_apply, count_word, val_main_c_6_apply]
  show (((IntOp.maxsi (BitVec.ofNat 32 (pairCount (times x1) (events x1))) 1#32).toInt : ℝ) : EReal) = _
  rw [toInt_maxsi_one _ (pairCount_le _ _), Int.cast_natCast]

end Cert.RefSide

end
-- ==== Proof.LibColumn.lean ====
/-
  Column forms of two layout operations, read at an index: a length-a vector cast to an a-by-1 column,
  and an a-by-1 column broadcast across b columns. (A row sum kept as a column, then spread back over the row.)
-/
import Idealize.ShloMosaic.Lib.Pipeline.Value
import Idealize.ShloMosaic.Lib.ValueIdx

noncomputable section

namespace Cert.Lib.Column

open Idealize.ShloMosaic Idealize.ShloMosaic.ValueIdx

variable {α : Type}

/-- A length-`a` vector cast to an `a`-by-1 column reads, at `(i, u)`, the vector at `i`: both sit at
    row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An `a`-by-1 column broadcast to `a`-by-`b` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.Column

end
-- ==== Proof.EntryArrays.lean ====
/-
  What the five operands of the tiled program hold when it starts, in the specification's terms.

  Before the tiles are walked, the scores (an 8192-by-1 array) are flattened to a vector, and the two columns of the
  8192-by-2 array of times and event flags are cut out and flattened likewise. Each vector is then laid out again as
  an 8192-by-1 column (read by the row tiles) and, for scores and times, as a 1-by-8192 row (read by the column
  tiles). A flattening and a re-layout keep every entry at its row-major position, and the cut at column k of an
  8192-by-2 array reads entry (i, k); so entry i of each operand is entry i of the scores, the times or the events.
-/
import proofs.«158161_j49297634624085_2_alg».proof.Proof.Gen.KernelIdeal.Frame.Runs
import proofs.«158161_j49297634624085_2_alg».proof.Proof.PairSpec
import proofs.«158161_j49297634624085_2_alg».proof.Proof.LibColumn
import Idealize.ShloMosaic.Lib.Pipeline.Value
import Idealize.ShloMosaic.Lib.ValueIdx
import Idealize.ShloMosaic.Lib.ValueLayout
import Idealize.ShloMosaic.Lib.StableHlo.Run

noncomputable section

namespace Cert.Entry

open Cert.KernelIdeal Cert.KernelIdeal.Gen Cert.PairSpec Idealize.ShloMosaic Idealize.ShloMosaic.ValueIdx Idealize.ShloMosaic.TcCoe

variable (m : (ℓ : Loc nD τ sig) → Buf (Elt Ideal) ℓ) (c : Dev nD)

/-! ## The three flattened vectors -/

theorem kept_v0 : (V m c main_v0 : S8192.Idx → EReal)
    = shapeCast _ (m ((c : Thread nD τ).loc main_arg0)) shapeCasts_S8192x1_S8192 := by
  show StableHlo.after hostOps0 (fun b => m (c, b)) (Proc.devRef .tc main_v0) = _
  after_results; rfl

theorem kept_v2 : (V m c main_v2 : S8192.Idx → EReal)
    = shapeCast _ (extractStridedSlice S8192x1 ![0, 0] (m ((c : Thread nD τ).loc main_arg1)) slices_S8192x2_S8192x1_0_0)
        shapeCasts_S8192x1_S8192 := by
  show StableHlo.after hostOps0 (fun b => m (c, b)) (Proc.devRef .tc main_v2) = _
  after_results; rfl

theorem kept_v4 : (V m c main_v4 : S8192.Idx → EReal)
    = shapeCast _ (extractStridedSlice S8192x1 ![0, 1] (m ((c : Thread nD τ).loc main_arg1)) slices_S8192x2_S8192x1_0_1)
        shapeCasts_S8192x1_S8192 := by
  show StableHlo.after hostOps0 (fun b => m (c, b)) (Proc.devRef .tc main_v4) = _
  after_results; rfl

/-! ## Reading the layouts at an index -/

/-- An a-by-1 column flattened to a length-a vector reads, at i, the column at (i, 0): both sit at row-major
    position i. -/
private theorem flatten_col_apply {α : Type} {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- Column k of an a-by-2 array, cut out as an a-by-1 column and flattened, reads at i the array at (i, k). -/
private theorem flatten_cut_apply {α : Type} {a : ℕ} (k : Fin 2) (x : (⟨2, ![a, 2]⟩ : Shape).Idx → α)
    (hs : (⟨2, ![a, 2]⟩ : Shape).Slices ![0, k.val] ⟨2, ![a, 1]⟩) (h : (⟨2, ![a, 1]⟩ : Shape).ShapeCasts ⟨1, ![a]⟩)
    (i : Fin a) :
    shapeCast ⟨1, ![a]⟩ (extractStridedSlice ⟨2, ![a, 1]⟩ ![0, k.val] x hs) h (ix1 i) = x (ix2 i k) := by
  rw [flatten_col_apply]
  exact slice2_axis1_apply k.val x hs i (0 : Fin 1) k rfl

/-! ## The five operands -/

theorem rows_scores (i : Fin 8192) :
    V m c main_v5 (ix2 i (0 : Fin 1)) = scores (m ((c : Thread nD τ).loc main_arg0)) i := by
  have e : (V m c main_v5 : S8192x1.Idx → EReal)
      = shapeCast _ (shapeCast S8192 (m ((c : Thread nD τ).loc main_arg0)) shapeCasts_S8192x1_S8192)
          shapeCasts_S8192_S8192x1 := by
    show StableHlo.after hostOps0 (fun b => m (c, b)) (Proc.devRef .tc main_v5) = _
    after_results; rfl
  rw [e, Cert.Lib.Column.shapeCast_a_a1_apply, flatten_col_apply]
  rfl

theorem cols_scores (i : Fin 8192) :
    V m c main_v6 (ix2 (0 : Fin 1) i) = scores (m ((c : Thread nD τ).loc main_arg0)) i := by
  have e : (V m c main_v6 : S1x8192.Idx → EReal)
      = shapeCast _ (shapeCast S8192 (m ((c : Thread nD τ).loc main_arg0)) shapeCasts_S8192x1_S8192)
          shapeCasts_S8192_S1x8192 := by
    show StableHlo.after hostOps0 (fun b => m (c, b)) (Proc.devRef .tc main_v6) = _
    after_results; rfl
  rw [e, shapeCast_a_1a_apply, flatten_col_apply]
  rfl

theorem rows_times (i : Fin 8192) :
    V m c main_v7 (ix2 i (0 : Fin 1)) = times (m ((c : Thread nD τ).loc main_arg1)) i := by
  have e : (V m c main_v7 : S8192x1.Idx → EReal)
      = shapeCast _ (shapeCast S8192 (extractStridedSlice S8192x1 ![0, 0] (m ((c : Thread nD τ).loc main_arg1))
          slices_S8192x2_S8192x1_0_0) shapeCasts_S8192x1_S8192) shapeCasts_S8192_S8192x1 := by
    show StableHlo.after hostOps0 (fun b => m (c, b)) (Proc.devRef .tc main_v7) = _
    after_results; rfl
  rw [e, Cert.Lib.Column.shapeCast_a_a1_apply]
  exact flatten_cut_apply (0 : Fin 2) _ slices_S8192x2_S8192x1_0_0 _ i

theorem cols_times (i : Fin 8192) :
    V m c main_v8 (ix2 (0 : Fin 1) i) = times (m ((c : Thread nD τ).loc main_arg1)) i := by
  have e : (V m c main_v8 : S1x8192.Idx → EReal)
      = shapeCast _ (shapeCast S8192 (extractStridedSlice S8192x1 ![0, 0] (m ((c : Thread nD τ).loc main_arg1))
          slices_S8192x2_S8192x1_0_0) shapeCasts_S8192x1_S8192) shapeCasts_S8192_S1x8192 := by
    show StableHlo.after hostOps0 (fun b => m (c, b)) (Proc.devRef .tc main_v8) = _
    after_results; rfl
  rw [e, shapeCast_a_1a_apply]
  exact flatten_cut_apply (0 : Fin 2) _ slices_S8192x2_S8192x1_0_0 _ i

theorem rows_events (i : Fin 8192) :
    V m c main_v9 (ix2 i (0 : Fin 1)) = events (m ((c : Thread nD τ).loc main_arg1)) i := by
  have e : (V m c main_v9 : S8192x1.Idx → EReal)
      = shapeCast _ (shapeCast S8192 (extractStridedSlice S8192x1 ![0, 1] (m ((c : Thread nD τ).loc main_arg1))
          slices_S8192x2_S8192x1_0_1) shapeCasts_S8192x1_S8192) shapeCasts_S8192_S8192x1 := by
    show StableHlo.after hostOps0 (fun b => m (c, b)) (Proc.devRef .tc main_v9) = _
    after_results; rfl
  rw [e, Cert.Lib.Column.shapeCast_a_a1_apply]
  exact flatten_cut_apply (1 : Fin 2) _ slices_S8192x2_S8192x1_0_1 _ i

end Cert.Entry

end
-- ==== Proof.TileTerms.lean ====
/-
  One grid point's arithmetic, read entry by entry. The point sees five blocks: the rows' scores, times and event flags
  as 512-by-1 columns, and the columns' scores and times as 1-by-2048 rows. When those blocks are the slices of three
  vectors p, t, e at row tile I and column tile J, the point's two row payloads are, at row r,
      (sum over the tile's columns c of the cell at (row r, column c)) times the row's 0/1 event flag,
  the cell being the squared hinge where the column's time is later (for the hinge total) or 1 where it is later (for
  the count). The accumulator update adds the sum over the 512 rows of such a payload to every lane of what it held.
-/
import proofs.«158161_j49297634624085_2_alg».proof.Proof.Gen.KernelIdeal.Skeleton
import proofs.«158161_j49297634624085_2_alg».proof.Proof.PairSpec
import proofs.«158161_j49297634624085_2_alg».proof.Proof.LibColumn
import Idealize.ShloMosaic.Lib.Pipeline.Value
import Idealize.ShloMosaic.Lib.ValueIdx
import Idealize.ShloMosaic.Lib.ValueLayout
import Idealize.ShloMosaic.PureOps.Ideal.Laws

noncomputable section

namespace Cert.Tile

open Idealize.ShloMosaic Idealize.ShloMosaic.ValueIdx Cert.KernelIdeal Cert.KernelIdeal.Gen Cert.PairSpec

/-- The comparison plane at (r, c): column c's time against row r's time. -/
theorem later_entry (x2 : Vec Ideal S512x1 .f32) (x3 : Vec Ideal S1x2048 .f32) (r : Fin 512) (c : Fin 2048) :
    k0_pay7 (F := Ideal) x2 x3 (ix2 r c)
      = FloatOps.cmpf (F := Ideal) (φ := .f32) .ogt (x3 (ix2 (0 : Fin 1) c)) (x2 (ix2 r (0 : Fin 1))) := by
  unfold k0_pay7
  rw [cmpf_apply, shapeCast_self, shapeCast_self, broadcastTo_1b_ab_apply, Cert.Lib.Column.broadcastTo_a1_ab_apply]

/-- A row's event flag as a 0/1 real: 1 when the row's event entry equals 1. -/
theorem flag_entry (x4 : Vec Ideal S512x1 .f32) (r : Fin 512) :
    k0_pay8 (F := Ideal) x4 (ix2 r (0 : Fin 1))
      = FloatOps.sitofp (F := Ideal) .f32 ((FloatOps.cmpf (F := Ideal) (φ := .f32) .oeq (x4 (ix2 r (0 : Fin 1))) PairSpec.one).setWidth 32) := by
  unfold k0_pay8
  rw [sitofp_apply, extui_apply, cmpf_apply, shapeCast_self]
  rfl

/-- A sum along the 2048 columns of a 512-by-2048 plane, at row r. -/
theorem column_sum (v : FVec Ideal S512x2048 .f32) (hφ : FKind.Formats .f32)
    (hacc : (0x00000000#32 : BitVec 32) = FKind.add.neutral .f32 hφ) (r : Fin 512) :
    multiReduction .add [1] S512 v 0x00000000#32 reduces_S512x2048_S512 hφ hacc (ix1 r) = ∑ c : Fin 2048, v (ix2 r c) := by
  refine (Ideal.multiReduction_add_single v _ reduces_S512x2048_S512 hφ hacc (ix1 r)).trans ?_
  refine Finset.sum_congr rfl fun c _ => congrArg v ?_
  funext a
  match a with
  | ⟨0, _⟩ => rfl
  | ⟨1, _⟩ => rfl

/-- A sum down the 512 rows of a 512-by-1 column. -/
theorem row_sum (v : FVec Ideal S512x1 .f32) (hφ : FKind.Formats .f32)
    (hacc : (0x00000000#32 : BitVec 32) = FKind.add.neutral .f32 hφ) :
    multiReduction .add [0] S1 v 0x00000000#32 reduces_S512x1_S1 hφ hacc (ix1 (0 : Fin 1)) = ∑ r : Fin 512, v (ix2 r (0 : Fin 1)) := by
  refine (Ideal.multiReduction_add_single v _ reduces_S512x1_S1 hφ hacc (ix1 (0 : Fin 1))).trans ?_
  refine Finset.sum_congr rfl fun r _ => congrArg v ?_
  funext a
  match a with
  | ⟨0, _⟩ => rfl
  | ⟨1, _⟩ => rfl

section
variable (p t e : Fin 8192 → EReal) (I : Fin 16) (J : Fin 4)
variable (x0 : Vec Ideal S512x1 .f32) (x1 : Vec Ideal S1x2048 .f32) (x2 : Vec Ideal S512x1 .f32) (x3 : Vec Ideal S1x2048 .f32)
  (x4 : Vec Ideal S512x1 .f32)

/-- The hinge row payload at row r: the tile's later-column squared hinges summed along the row, times the row's flag. -/
theorem hingeRow_entry (h0 : ∀ r : Fin 512, x0 (ix2 r (0 : Fin 1)) = p (row I r)) (h1 : ∀ c : Fin 2048, x1 (ix2 (0 : Fin 1) c) = p (col J c))
    (h2 : ∀ r : Fin 512, x2 (ix2 r (0 : Fin 1)) = t (row I r)) (h3 : ∀ c : Fin 2048, x3 (ix2 (0 : Fin 1) c) = t (col J c))
    (h4 : ∀ r : Fin 512, x4 (ix2 r (0 : Fin 1)) = e (row I r)) (r : Fin 512) :
    k0_pay9 (F := Ideal) x0 x1 x2 x3 x4 (ix2 r (0 : Fin 1))
      = (∑ c : Fin 2048, laterHinge p t (row I r) (col J c)) * flag e (row I r) := by
  unfold k0_pay9
  rw [mulf_apply, Cert.Lib.Column.shapeCast_a_a1_apply, flag_entry, h4]
  refine congrArg (· * flag e (row I r)) ?_
  refine (column_sum _ _ _ r).trans ?_
  refine Finset.sum_congr rfl fun c _ => ?_
  rw [select_apply, later_entry, h2, h3]
  rw [mulf_apply, maximumf_apply, addf_apply, broadcastTo_1b_ab_apply, Cert.Lib.Column.broadcastTo_a1_ab_apply, subf_apply,
    shapeCast_self, shapeCast_self, h0, h1]
  rfl

/-- The count row payload at row r: the number of the tile's later columns, times the row's flag. -/
theorem countRow_entry (h2 : ∀ r : Fin 512, x2 (ix2 r (0 : Fin 1)) = t (row I r)) (h3 : ∀ c : Fin 2048, x3 (ix2 (0 : Fin 1) c) = t (col J c))
    (h4 : ∀ r : Fin 512, x4 (ix2 r (0 : Fin 1)) = e (row I r)) (r : Fin 512) :
    k0_pay10 (F := Ideal) x2 x3 x4 (ix2 r (0 : Fin 1))
      = (∑ c : Fin 2048, laterUnit t (row I r) (col J c)) * flag e (row I r) := by
  unfold k0_pay10
  rw [mulf_apply, Cert.Lib.Column.shapeCast_a_a1_apply, flag_entry, h4]
  refine congrArg (· * flag e (row I r)) ?_
  refine (column_sum _ _ _ r).trans ?_
  refine Finset.sum_congr rfl fun c _ => ?_
  rw [sitofp_apply, extui_apply, later_entry, h2, h3]
  rfl

end

/-- The accumulator update: every lane gains the sum of the row payload over the tile's 512 rows. -/
theorem accumulate_entry (v : FVec Ideal S512x1 .f32) (a : Vec Ideal S1x128 .f32) (l : Fin 128) :
    k0_pay1 (F := Ideal) v a (ix2 (0 : Fin 1) l) = a (ix2 (0 : Fin 1) l) + ∑ r : Fin 512, v (ix2 r (0 : Fin 1)) := by
  unfold k0_pay1
  rw [shapeCast_self, addf_apply, Cert.Lib.Column.broadcastTo_a1_ab_apply, Cert.Lib.Column.shapeCast_a_a1_apply]
  exact congrArg (a (ix2 (0 : Fin 1) l) + ·) (row_sum v _ _)

/-- The second accumulator's update is the same function. -/
theorem accumulate_entry' (v : FVec Ideal S512x1 .f32) (a : Vec Ideal S1x128 .f32) (l : Fin 128) :
    k0_pay2 (F := Ideal) v a (ix2 (0 : Fin 1) l) = a (ix2 (0 : Fin 1) l) + ∑ r : Fin 512, v (ix2 r (0 : Fin 1)) := by
  unfold k0_pay2
  rw [shapeCast_self, addf_apply, Cert.Lib.Column.broadcastTo_a1_ab_apply, Cert.Lib.Column.shapeCast_a_a1_apply]
  exact congrArg (a (ix2 (0 : Fin 1) l) + ·) (row_sum v _ _)

/-- The block stored at a row tile's first column tile is zero in every lane. -/
theorem zero_entry (l : Fin 128) : k0_pay5 (F := Ideal) (ix2 (0 : Fin 1) l) = 0 := by
  unfold k0_pay5
  rw [shapeCast_self, broadcast_apply]
  exact Ideal.ofBits_zero_f32

theorem zero_entry' (l : Fin 128) : k0_pay6 (F := Ideal) (ix2 (0 : Fin 1) l) = 0 := by
  unfold k0_pay6
  rw [shapeCast_self, broadcast_apply]
  exact Ideal.ofBits_zero_f32

/-- The output block is the accumulator with a unit axis put in front. -/
theorem out_entry (a : Vec Ideal S1x128 .f32) (l : Fin 128) :
    k0_pay3 (F := Ideal) a (ix3 (0 : Fin 1) (0 : Fin 1) l) = a (ix2 (0 : Fin 1) l) := by
  unfold k0_pay3
  exact shapeCast_ab_1ab_apply a _ (0 : Fin 1) (0 : Fin 1) l

theorem out_entry' (a : Vec Ideal S1x128 .f32) (l : Fin 128) :
    k0_pay4 (F := Ideal) a (ix3 (0 : Fin 1) (0 : Fin 1) l) = a (ix2 (0 : Fin 1) l) := by
  unfold k0_pay4
  exact shapeCast_ab_1ab_apply a _ (0 : Fin 1) (0 : Fin 1) l

end Cert.Tile

end
-- ==== Proof.CasePieces.lean ====
/-
  What each of the kernel body's three control cases leaves behind, as values. At a row tile's first column tile the two
  accumulators are set to zero and the tile's totals added; at the middle column tiles the totals are added to what the
  accumulators held; at the last column tile the same, and the accumulators' new contents are also stored, with a unit
  axis put in front, into the two output blocks.
-/
import proofs.«158161_j49297634624085_2_alg».proof.Proof.Gen.KernelIdeal.Frame
import Idealize.ShloMosaic.Lib.Pipeline.Value

set_option maxRecDepth 16384

noncomputable section

namespace Cert.Pieces

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- First column tile: the hinge accumulator ends at the tile's total added to the zero block just stored. -/
theorem first_hinge (c : Dev nD) (i : grid0.Coords) (arg2 : Memref sig .tc .vmem S512x1 .f32) (harg2 : arg2.IsWhole) (arg3 : Memref sig .tc .vmem S1x2048 .f32) (harg3 : arg3.IsWhole) (arg4 : Memref sig .tc .vmem S512x1 .f32) (harg4 : arg4.IsWhole) (arg5 : Memref sig .tc .vmem S1x2048 .f32) (harg5 : arg5.IsWhole) (arg6 : Memref sig .tc .vmem S512x1 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x128 .f32) (harg9 : arg9.IsWhole) (arg10 : Memref sig .tc .vmem S1x128 .f32) (harg10 : arg10.IsWhole) (hc0 : cond0_0 i) (hc1 : ¬cond0_1 i)
    (x0 : Vec F S512x1 .f32) (x1 : Vec F S1x2048 .f32) (x2 : Vec F S512x1 .f32) (x3 : Vec F S1x2048 .f32) (x4 : Vec F S512x1 .f32) :
    sout0_A_0 (F := F) c i arg2 harg2 arg3 harg3 arg4 harg4 arg5 harg5 arg6 harg6 arg7 harg7 arg8 harg8 arg9 harg9 arg10 harg10 hc0 hc1 x0 x1 x2 x3 x4 = k0_pay1 (k0_pay9 x0 x1 x2 x3 x4) (k0_pay5 (F := F)) := by
  unfold sout0_A_0
  rw [View.read_writes_eq_canon _ _ _ (scover0_A_0 c i arg2 harg2 arg3 harg3 arg4 harg4 arg5 harg5 arg6 harg6 arg7 harg7 arg8 harg8 arg9 harg9 arg10 harg10 hc0 hc1 x0 x1 x2 x3 x4)]
  unfold kernelRun0_A
  dsimp only
  sl_unfold_words
  rw [View.canon_cons_unit_zero (S := S1x128) hz2, View.readCov_unit_zero (S := S1x128) _ hz2]
  simp only [View.readAt_eq_ld, harg2.read_unread, harg3.read_unread, harg4.read_unread, harg5.read_unread, harg6.read_unread, harg9.read_unread, harg10.read_unread,
    View.ld_unit_zero (S := S512x1) hz2, View.ld_unit_zero (S := S1x2048) hz2, View.ld_unit_zero (S := S1x128) hz2]

/-- First column tile: the count accumulator likewise. -/
theorem first_count (c : Dev nD) (i : grid0.Coords) (arg2 : Memref sig .tc .vmem S512x1 .f32) (harg2 : arg2.IsWhole) (arg3 : Memref sig .tc .vmem S1x2048 .f32) (harg3 : arg3.IsWhole) (arg4 : Memref sig .tc .vmem S512x1 .f32) (harg4 : arg4.IsWhole) (arg5 : Memref sig .tc .vmem S1x2048 .f32) (harg5 : arg5.IsWhole) (arg6 : Memref sig .tc .vmem S512x1 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x128 .f32) (harg9 : arg9.IsWhole) (arg10 : Memref sig .tc .vmem S1x128 .f32) (harg10 : arg10.IsWhole) (hc0 : cond0_0 i) (hc1 : ¬cond0_1 i)
    (x0 : Vec F S512x1 .f32) (x1 : Vec F S1x2048 .f32) (x2 : Vec F S512x1 .f32) (x3 : Vec F S1x2048 .f32) (x4 : Vec F S512x1 .f32) :
    sout0_A_1 (F := F) c i arg2 harg2 arg3 harg3 arg4 harg4 arg5 harg5 arg6 harg6 arg7 harg7 arg8 harg8 arg9 harg9 arg10 harg10 hc0 hc1 x0 x1 x2 x3 x4 = k0_pay2 (k0_pay10 x2 x3 x4) (k0_pay6 (F := F)) := by
  unfold sout0_A_1
  rw [View.read_writes_eq_canon _ _ _ (scover0_A_1 c i arg2 harg2 arg3 harg3 arg4 harg4 arg5 harg5 arg6 harg6 arg7 harg7 arg8 harg8 arg9 harg9 arg10 harg10 hc0 hc1 x0 x1 x2 x3 x4)]
  unfold kernelRun0_A
  dsimp only
  sl_unfold_words
  rw [View.canon_cons_unit_zero (S := S1x128) hz2, View.readCov_unit_zero (S := S1x128) _ hz2]
  simp only [View.readAt_eq_ld, harg2.read_unread, harg3.read_unread, harg4.read_unread, harg5.read_unread, harg6.read_unread, harg9.read_unread, harg10.read_unread,
    View.ld_unit_zero (S := S512x1) hz2, View.ld_unit_zero (S := S1x2048) hz2, View.ld_unit_zero (S := S1x128) hz2]

/-- A middle column tile: the hinge accumulator gains the tile's total. -/
theorem middle_hinge (c : Dev nD) (i : grid0.Coords) (arg2 : Memref sig .tc .vmem S512x1 .f32) (harg2 : arg2.IsWhole) (arg3 : Memref sig .tc .vmem S1x2048 .f32) (harg3 : arg3.IsWhole) (arg4 : Memref sig .tc .vmem S512x1 .f32) (harg4 : arg4.IsWhole) (arg5 : Memref sig .tc .vmem S1x2048 .f32) (harg5 : arg5.IsWhole) (arg6 : Memref sig .tc .vmem S512x1 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : ¬cond0_1 i)
    (x0 : Vec F S512x1 .f32) (x1 : Vec F S1x2048 .f32) (x2 : Vec F S512x1 .f32) (x3 : Vec F S1x2048 .f32) (x4 : Vec F S512x1 .f32) (xs0 : Vec F S1x128 .f32) (xs1 : Vec F S1x128 .f32) :
    sout0_B_0 (F := F) c i arg2 harg2 arg3 harg3 arg4 harg4 arg5 harg5 arg6 harg6 arg7 harg7 arg8 harg8 arg9 harg9 arg10 harg10 hc0 hc1 x0 x1 x2 x3 x4 xs0 xs1 = k0_pay1 (k0_pay9 x0 x1 x2 x3 x4) xs0 := by
  unfold sout0_B_0
  rw [View.read_writes_eq_canon _ _ _ (scover0_B_0 c i arg2 harg2 arg3 harg3 arg4 harg4 arg5 harg5 arg6 harg6 arg7 harg7 arg8 harg8 arg9 harg9 arg10 harg10 hc0 hc1 x0 x1 x2 x3 x4 xs0 xs1)]
  unfold kernelRun0_B
  dsimp only
  sl_unfold_words
  rw [View.canon_unit_zero (S := S1x128) hz2]
  simp only [View.readAt_eq_ld, harg2.read_unread, harg3.read_unread, harg4.read_unread, harg5.read_unread, harg6.read_unread, harg9.read_unread, harg10.read_unread,
    View.ld_unit_zero (S := S512x1) hz2, View.ld_unit_zero (S := S1x2048) hz2, View.ld_unit_zero (S := S1x128) hz2]

/-- A middle column tile: the count accumulator gains the tile's count. -/
theorem middle_count (c : Dev nD) (i : grid0.Coords) (arg2 : Memref sig .tc .vmem S512x1 .f32) (harg2 : arg2.IsWhole) (arg3 : Memref sig .tc .vmem S1x2048 .f32) (harg3 : arg3.IsWhole) (arg4 : Memref sig .tc .vmem S512x1 .f32) (harg4 : arg4.IsWhole) (arg5 : Memref sig .tc .vmem S1x2048 .f32) (harg5 : arg5.IsWhole) (arg6 : Memref sig .tc .vmem S512x1 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : ¬cond0_1 i)
    (x0 : Vec F S512x1 .f32) (x1 : Vec F S1x2048 .f32) (x2 : Vec F S512x1 .f32) (x3 : Vec F S1x2048 .f32) (x4 : Vec F S512x1 .f32) (xs0 : Vec F S1x128 .f32) (xs1 : Vec F S1x128 .f32) :
    sout0_B_1 (F := F) c i arg2 harg2 arg3 harg3 arg4 harg4 arg5 harg5 arg6 harg6 arg7 harg7 arg8 harg8 arg9 harg9 arg10 harg10 hc0 hc1 x0 x1 x2 x3 x4 xs0 xs1 = k0_pay2 (k0_pay10 x2 x3 x4) xs1 := by
  unfold sout0_B_1
  rw [View.read_writes_eq_canon _ _ _ (scover0_B_1 c i arg2 harg2 arg3 harg3 arg4 harg4 arg5 harg5 arg6 harg6 arg7 harg7 arg8 harg8 arg9 harg9 arg10 harg10 hc0 hc1 x0 x1 x2 x3 x4 xs0 xs1)]
  unfold kernelRun0_B
  dsimp only
  sl_unfold_words
  rw [View.canon_unit_zero (S := S1x128) hz2]
  simp only [View.readAt_eq_ld, harg2.read_unread, harg3.read_unread, harg4.read_unread, harg5.read_unread, harg6.read_unread, harg9.read_unread, harg10.read_unread,
    View.ld_unit_zero (S := S512x1) hz2, View.ld_unit_zero (S := S1x2048) hz2, View.ld_unit_zero (S := S1x128) hz2]

/-- Last column tile: the hinge accumulator gains the tile's total. -/
theorem last_hinge (c : Dev nD) (i : grid0.Coords) (arg2 : Memref sig .tc .vmem S512x1 .f32) (harg2 : arg2.IsWhole) (arg3 : Memref sig .tc .vmem S1x2048 .f32) (harg3 : arg3.IsWhole) (arg4 : Memref sig .tc .vmem S512x1 .f32) (harg4 : arg4.IsWhole) (arg5 : Memref sig .tc .vmem S1x2048 .f32) (harg5 : arg5.IsWhole) (arg6 : Memref sig .tc .vmem S512x1 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : cond0_1 i)
    (x0 : Vec F S512x1 .f32) (x1 : Vec F S1x2048 .f32) (x2 : Vec F S512x1 .f32) (x3 : Vec F S1x2048 .f32) (x4 : Vec F S512x1 .f32) (xs0 : Vec F S1x128 .f32) (xs1 : Vec F S1x128 .f32) :
    sout0_C_0 (F := F) c i arg2 harg2 arg3 harg3 arg4 harg4 arg5 harg5 arg6 harg6 arg7 harg7 arg8 harg8 arg9 harg9 arg10 harg10 hc0 hc1 x0 x1 x2 x3 x4 xs0 xs1 = k0_pay1 (k0_pay9 x0 x1 x2 x3 x4) xs0 := by
  unfold sout0_C_0
  rw [View.read_writes_eq_canon _ _ _ (scover0_C_0 c i arg2 harg2 arg3 harg3 arg4 harg4 arg5 harg5 arg6 harg6 arg7 harg7 arg8 harg8 arg9 harg9 arg10 harg10 hc0 hc1 x0 x1 x2 x3 x4 xs0 xs1)]
  unfold kernelRun0_C
  dsimp only
  sl_unfold_words
  rw [View.canon_unit_zero (S := S1x128) hz2]
  simp only [View.readAt_eq_ld, harg2.read_unread, harg3.read_unread, harg4.read_unread, harg5.read_unread, harg6.read_unread, harg9.read_unread, harg10.read_unread,
    View.ld_unit_zero (S := S512x1) hz2, View.ld_unit_zero (S := S1x2048) hz2, View.ld_unit_zero (S := S1x128) hz2]

/-- Last column tile: the count accumulator gains the tile's count. -/
theorem last_count (c : Dev nD) (i : grid0.Coords) (arg2 : Memref sig .tc .vmem S512x1 .f32) (harg2 : arg2.IsWhole) (arg3 : Memref sig .tc .vmem S1x2048 .f32) (harg3 : arg3.IsWhole) (arg4 : Memref sig .tc .vmem S512x1 .f32) (harg4 : arg4.IsWhole) (arg5 : Memref sig .tc .vmem S1x2048 .f32) (harg5 : arg5.IsWhole) (arg6 : Memref sig .tc .vmem S512x1 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : cond0_1 i)
    (x0 : Vec F S512x1 .f32) (x1 : Vec F S1x2048 .f32) (x2 : Vec F S512x1 .f32) (x3 : Vec F S1x2048 .f32) (x4 : Vec F S512x1 .f32) (xs0 : Vec F S1x128 .f32) (xs1 : Vec F S1x128 .f32) :
    sout0_C_1 (F := F) c i arg2 harg2 arg3 harg3 arg4 harg4 arg5 harg5 arg6 harg6 arg7 harg7 arg8 harg8 arg9 harg9 arg10 harg10 hc0 hc1 x0 x1 x2 x3 x4 xs0 xs1 = k0_pay2 (k0_pay10 x2 x3 x4) xs1 := by
  unfold sout0_C_1
  rw [View.read_writes_eq_canon _ _ _ (scover0_C_1 c i arg2 harg2 arg3 harg3 arg4 harg4 arg5 harg5 arg6 harg6 arg7 harg7 arg8 harg8 arg9 harg9 arg10 harg10 hc0 hc1 x0 x1 x2 x3 x4 xs0 xs1)]
  unfold kernelRun0_C
  dsimp only
  sl_unfold_words
  rw [View.canon_unit_zero (S := S1x128) hz2]
  simp only [View.readAt_eq_ld, harg2.read_unread, harg3.read_unread, harg4.read_unread, harg5.read_unread, harg6.read_unread, harg9.read_unread, harg10.read_unread,
    View.ld_unit_zero (S := S512x1) hz2, View.ld_unit_zero (S := S1x2048) hz2, View.ld_unit_zero (S := S1x128) hz2]

/-- Last column tile: the first output block is the hinge accumulator's new contents. -/
theorem last_hinge_out (c : Dev nD) (i : grid0.Coords) (arg2 : Memref sig .tc .vmem S512x1 .f32) (harg2 : arg2.IsWhole) (arg3 : Memref sig .tc .vmem S1x2048 .f32) (harg3 : arg3.IsWhole) (arg4 : Memref sig .tc .vmem S512x1 .f32) (harg4 : arg4.IsWhole) (arg5 : Memref sig .tc .vmem S1x2048 .f32) (harg5 : arg5.IsWhole) (arg6 : Memref sig .tc .vmem S512x1 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : cond0_1 i)
    (x0 : Vec F S512x1 .f32) (x1 : Vec F S1x2048 .f32) (x2 : Vec F S512x1 .f32) (x3 : Vec F S1x2048 .f32) (x4 : Vec F S512x1 .f32) (xs0 : Vec F S1x128 .f32) (xs1 : Vec F S1x128 .f32) :
    out0_C_5 (F := F) c i arg2 harg2 arg3 harg3 arg4 harg4 arg5 harg5 arg6 harg6 arg7 harg7 arg8 harg8 arg9 harg9 arg10 harg10 hc0 hc1 x0 x1 x2 x3 x4 xs0 xs1 = k0_pay3 (k0_pay1 (k0_pay9 x0 x1 x2 x3 x4) xs0) := by
  unfold out0_C_5
  rw [View.read_writes_eq_canon _ _ _ (cover0_C_5 c i arg2 harg2 arg3 harg3 arg4 harg4 arg5 harg5 arg6 harg6 arg7 harg7 arg8 harg8 arg9 harg9 arg10 harg10 hc0 hc1 x0 x1 x2 x3 x4 xs0 xs1)]
  unfold kernelRun0_C
  dsimp only
  sl_unfold_words
  rw [View.canon_unit_zero (S := S1x1x128) hz3, View.readCov_unit_zero (S := S1x128) _ hz2]
  simp only [View.readAt_eq_ld, harg2.read_unread, harg3.read_unread, harg4.read_unread, harg5.read_unread, harg6.read_unread, harg9.read_unread, harg10.read_unread,
    View.ld_unit_zero (S := S512x1) hz2, View.ld_unit_zero (S := S1x2048) hz2, View.ld_unit_zero (S := S1x128) hz2]

/-- Last column tile: the second output block is the count accumulator's new contents. -/
theorem last_count_out (c : Dev nD) (i : grid0.Coords) (arg2 : Memref sig .tc .vmem S512x1 .f32) (harg2 : arg2.IsWhole) (arg3 : Memref sig .tc .vmem S1x2048 .f32) (harg3 : arg3.IsWhole) (arg4 : Memref sig .tc .vmem S512x1 .f32) (harg4 : arg4.IsWhole) (arg5 : Memref sig .tc .vmem S1x2048 .f32) (harg5 : arg5.IsWhole) (arg6 : Memref sig .tc .vmem S512x1 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : cond0_1 i)
    (x0 : Vec F S512x1 .f32) (x1 : Vec F S1x2048 .f32) (x2 : Vec F S512x1 .f32) (x3 : Vec F S1x2048 .f32) (x4 : Vec F S512x1 .f32) (xs0 : Vec F S1x128 .f32) (xs1 : Vec F S1x128 .f32) :
    out0_C_6 (F := F) c i arg2 harg2 arg3 harg3 arg4 harg4 arg5 harg5 arg6 harg6 arg7 harg7 arg8 harg8 arg9 harg9 arg10 harg10 hc0 hc1 x0 x1 x2 x3 x4 xs0 xs1 = k0_pay4 (k0_pay2 (k0_pay10 x2 x3 x4) xs1) := by
  unfold out0_C_6
  rw [View.read_writes_eq_canon _ _ _ (cover0_C_6 c i arg2 harg2 arg3 harg3 arg4 harg4 arg5 harg5 arg6 harg6 arg7 harg7 arg8 harg8 arg9 harg9 arg10 harg10 hc0 hc1 x0 x1 x2 x3 x4 xs0 xs1)]
  unfold kernelRun0_C
  dsimp only
  sl_unfold_words
  rw [View.canon_unit_zero (S := S1x1x128) hz3, View.readCov_unit_zero (S := S1x128) _ hz2]
  simp only [View.readAt_eq_ld, harg2.read_unread, harg3.read_unread, harg4.read_unread, harg5.read_unread, harg6.read_unread, harg9.read_unread, harg10.read_unread,
    View.ld_unit_zero (S := S512x1) hz2, View.ld_unit_zero (S := S1x2048) hz2, View.ld_unit_zero (S := S1x128) hz2]

end Cert.Pieces

end
-- ==== Proof.Accumulate.lean ====
/-
  The two accumulators, point by point. The 64 grid points are visited row tile by row tile (point n is row tile n / 4,
  column tile n % 4). At a point the five blocks the body sees are slices of the scores, times and event flags: rows
  512 (n / 4) + r and columns 2048 (n % 4) + c. So the body's update adds tile (n / 4, n % 4)'s total to every lane of
  an accumulator; the first column tile starts from zero. By induction on the point, after point n every lane of an
  accumulator holds the sum of the totals of tiles (n / 4, 0) … (n / 4, n % 4). At a row tile's last column tile that
  value, the row tile's whole total, is what is stored into the output block.
-/
import proofs.«158161_j49297634624085_2_alg».proof.Proof.Gen.KernelIdeal.Frame
import proofs.«158161_j49297634624085_2_alg».proof.Proof.PairSpec
import proofs.«158161_j49297634624085_2_alg».proof.Proof.TileTerms
import proofs.«158161_j49297634624085_2_alg».proof.Proof.CasePieces
import proofs.«158161_j49297634624085_2_alg».proof.Proof.EntryArrays
import Idealize.ShloMosaic.Lib.Pipeline.Value
import Idealize.ShloMosaic.Lib.ValueIdx

set_option maxRecDepth 16384

noncomputable section

namespace Cert.Acc

open Idealize.ShloMosaic Idealize.ShloMosaic.ValueIdx Idealize.ShloMosaic.TcCoe Cert.KernelIdeal Cert.KernelIdeal.Gen Cert.PairSpec

variable (m : (ℓ : Loc nD τ sig) → Buf (Elt Ideal) ℓ) (c : Dev nD)

/-- The scores, times and event flags the run starts from. -/
abbrev P : Fin 8192 → EReal := scores (m ((c : Thread nD τ).loc main_arg0))
abbrev T : Fin 8192 → EReal := times (m ((c : Thread nD τ).loc main_arg1))
abbrev E : Fin 8192 → EReal := events (m ((c : Thread nD τ).loc main_arg1))

/-- Point t's row tile and column tile. -/
def tileRow (t : Fin cfg0.N) : Fin 16 := ⟨t.val / 4, by have h := t.isLt; have hN : cfg0.N = 64 := N_0; omega⟩
def tileCol (t : Fin cfg0.N) : Fin 4 := ⟨t.val % 4, Nat.mod_lt _ (by decide)⟩

/-- The five input windows' block indices at a point: row windows at (t / 4, 0), column windows at (0, t % 4). -/
theorem idx_facts : ∀ t : Fin cfg0.N,
      win0_0.index t (0 : Fin 2) = t.val / 4 ∧ win0_0.index t (1 : Fin 2) = 0
    ∧ win0_1.index t (0 : Fin 2) = 0 ∧ win0_1.index t (1 : Fin 2) = t.val % 4
    ∧ win0_2.index t (0 : Fin 2) = t.val / 4 ∧ win0_2.index t (1 : Fin 2) = 0
    ∧ win0_3.index t (0 : Fin 2) = 0 ∧ win0_3.index t (1 : Fin 2) = t.val % 4
    ∧ win0_4.index t (0 : Fin 2) = t.val / 4 ∧ win0_4.index t (1 : Fin 2) = 0 :=
  (by decide +kernel : ∀ t : Fin grid0.N, _)

/-! ## The blocks are slices of the three vectors -/

theorem blk_rows_scores (t : Fin cfg0.N) (r : Fin 512) :
    iblk m c 0 t (ix2 r (0 : Fin 1)) = P m c (row (tileRow t) r) := by
  obtain ⟨a0, a1, b0, b1, c0, c1, d0, d1, e0, e1⟩ := idx_facts t
  refine Eq.trans ?_ (Cert.Entry.rows_scores m c (row (tileRow t) r))
  show V m c main_v5 (((cfg0.win 0).blk t).view.emb (ix2 r (0 : Fin 1))) = V m c main_v5 (ix2 (row (tileRow t) r) (0 : Fin 1))
  refine congrArg (V m c main_v5) ?_
  funext a; apply Fin.ext
  match a with
  | ⟨0, _⟩ => show win0_0.index t (0 : Fin 2) * 512 + 1 * r.val = 512 * (t.val / 4) + r.val; omega
  | ⟨1, _⟩ => show win0_0.index t (1 : Fin 2) * 1 + 1 * 0 = 0; omega

theorem blk_cols_scores (t : Fin cfg0.N) (q : Fin 2048) :
    iblk m c 1 t (ix2 (0 : Fin 1) q) = P m c (col (tileCol t) q) := by
  obtain ⟨a0, a1, b0, b1, c0, c1, d0, d1, e0, e1⟩ := idx_facts t
  refine Eq.trans ?_ (Cert.Entry.cols_scores m c (col (tileCol t) q))
  show V m c main_v6 (((cfg0.win 1).blk t).view.emb (ix2 (0 : Fin 1) q)) = V m c main_v6 (ix2 (0 : Fin 1) (col (tileCol t) q))
  refine congrArg (V m c main_v6) ?_
  funext a; apply Fin.ext
  match a with
  | ⟨0, _⟩ => show win0_1.index t (0 : Fin 2) * 1 + 1 * 0 = 0; omega
  | ⟨1, _⟩ => show win0_1.index t (1 : Fin 2) * 2048 + 1 * q.val = 2048 * (t.val % 4) + q.val; omega

theorem blk_rows_times (t : Fin cfg0.N) (r : Fin 512) :
    iblk m c 2 t (ix2 r (0 : Fin 1)) = T m c (row (tileRow t) r) := by
  obtain ⟨a0, a1, b0, b1, c0, c1, d0, d1, e0, e1⟩ := idx_facts t
  refine Eq.trans ?_ (Cert.Entry.rows_times m c (row (tileRow t) r))
  show V m c main_v7 (((cfg0.win 2).blk t).view.emb (ix2 r (0 : Fin 1))) = V m c main_v7 (ix2 (row (tileRow t) r) (0 : Fin 1))
  refine congrArg (V m c main_v7) ?_
  funext a; apply Fin.ext
  match a with
  | ⟨0, _⟩ => show win0_2.index t (0 : Fin 2) * 512 + 1 * r.val = 512 * (t.val / 4) + r.val; omega
  | ⟨1, _⟩ => show win0_2.index t (1 : Fin 2) * 1 + 1 * 0 = 0; omega

theorem blk_cols_times (t : Fin cfg0.N) (q : Fin 2048) :
    iblk m c 3 t (ix2 (0 : Fin 1) q) = T m c (col (tileCol t) q) := by
  obtain ⟨a0, a1, b0, b1, c0, c1, d0, d1, e0, e1⟩ := idx_facts t
  refine Eq.trans ?_ (Cert.Entry.cols_times m c (col (tileCol t) q))
  show V m c main_v8 (((cfg0.win 3).blk t).view.emb (ix2 (0 : Fin 1) q)) = V m c main_v8 (ix2 (0 : Fin 1) (col (tileCol t) q))
  refine congrArg (V m c main_v8) ?_
  funext a; apply Fin.ext
  match a with
  | ⟨0, _⟩ => show win0_3.index t (0 : Fin 2) * 1 + 1 * 0 = 0; omega
  | ⟨1, _⟩ => show win0_3.index t (1 : Fin 2) * 2048 + 1 * q.val = 2048 * (t.val % 4) + q.val; omega

theorem blk_rows_events (t : Fin cfg0.N) (r : Fin 512) :
    iblk m c 4 t (ix2 r (0 : Fin 1)) = E m c (row (tileRow t) r) := by
  obtain ⟨a0, a1, b0, b1, c0, c1, d0, d1, e0, e1⟩ := idx_facts t
  refine Eq.trans ?_ (Cert.Entry.rows_events m c (row (tileRow t) r))
  show V m c main_v9 (((cfg0.win 4).blk t).view.emb (ix2 r (0 : Fin 1))) = V m c main_v9 (ix2 (row (tileRow t) r) (0 : Fin 1))
  refine congrArg (V m c main_v9) ?_
  funext a; apply Fin.ext
  match a with
  | ⟨0, _⟩ => show win0_4.index t (0 : Fin 2) * 512 + 1 * r.val = 512 * (t.val / 4) + r.val; omega
  | ⟨1, _⟩ => show win0_4.index t (1 : Fin 2) * 1 + 1 * 0 = 0; omega

/-! ## One point's update adds its tile's total -/

theorem tile_hinge (t : Fin cfg0.N) (a : Vec Ideal S1x128 .f32) (l : Fin 128) :
    k0_pay1 (F := Ideal) (k0_pay9 (F := Ideal) (iblk m c 0 t) (iblk m c 1 t) (iblk m c 2 t) (iblk m c 3 t) (iblk m c 4 t)) a (ix2 (0 : Fin 1) l)
      = a (ix2 (0 : Fin 1) l) + tileTotal (laterHinge (P m c) (T m c)) (flag (E m c)) (tileRow t) (tileCol t) := by
  refine (Cert.Tile.accumulate_entry _ a l).trans ?_
  refine congrArg (a (ix2 (0 : Fin 1) l) + ·) ?_
  unfold tileTotal
  exact Finset.sum_congr rfl fun r _ => Cert.Tile.hingeRow_entry (P m c) (T m c) (E m c) (tileRow t) (tileCol t)
    (iblk m c 0 t) (iblk m c 1 t) (iblk m c 2 t) (iblk m c 3 t) (iblk m c 4 t) (blk_rows_scores m c t) (blk_cols_scores m c t) (blk_rows_times m c t) (blk_cols_times m c t) (blk_rows_events m c t) r

theorem tile_count (t : Fin cfg0.N) (a : Vec Ideal S1x128 .f32) (l : Fin 128) :
    k0_pay2 (F := Ideal) (k0_pay10 (F := Ideal) (iblk m c 2 t) (iblk m c 3 t) (iblk m c 4 t)) a (ix2 (0 : Fin 1) l)
      = a (ix2 (0 : Fin 1) l) + tileTotal (laterUnit (T m c)) (flag (E m c)) (tileRow t) (tileCol t) := by
  refine (Cert.Tile.accumulate_entry' _ a l).trans ?_
  refine congrArg (a (ix2 (0 : Fin 1) l) + ·) ?_
  unfold tileTotal
  exact Finset.sum_congr rfl fun r _ => Cert.Tile.countRow_entry (T m c) (E m c) (tileRow t) (tileCol t)
    (iblk m c 2 t) (iblk m c 3 t) (iblk m c 4 t) (blk_rows_times m c t) (blk_cols_times m c t) (blk_rows_events m c t) r

/-! ## What each kind of point leaves, from the cases' found pieces -/

theorem first_hinge (t : Fin cfg0.N) (h0 : t.val % 4 = 0) (h1 : ¬t.val % 4 = 3) :
    (outsAt0 m c t.val t.isLt).2.2.1 = k0_pay1 (k0_pay9 (iblk m c 0 t) (iblk m c 1 t) (iblk m c 2 t) (iblk m c 3 t) (iblk m c 4 t)) (k0_pay5 (F := Ideal)) := by
  rw [outsAt0_A m c t h0 h1]
  dsimp only
  exact Cert.Pieces.first_hinge (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t)

theorem first_count (t : Fin cfg0.N) (h0 : t.val % 4 = 0) (h1 : ¬t.val % 4 = 3) :
    (outsAt0 m c t.val t.isLt).2.2.2 = k0_pay2 (k0_pay10 (iblk m c 2 t) (iblk m c 3 t) (iblk m c 4 t)) (k0_pay6 (F := Ideal)) := by
  rw [outsAt0_A m c t h0 h1]
  dsimp only
  exact Cert.Pieces.first_count (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t)

theorem middle_hinge (t : Fin cfg0.N) (h0 : ¬t.val % 4 = 0) (h1 : ¬t.val % 4 = 3) :
    (outsAt0 m c t.val t.isLt).2.2.1 = k0_pay1 (k0_pay9 (iblk m c 0 t) (iblk m c 1 t) (iblk m c 2 t) (iblk m c 3 t) (iblk m c 4 t)) (outsAt0 m c (t.val - 1) (Nat.lt_of_le_of_lt (Nat.sub_le _ _) t.isLt)).2.2.1 := by
  rw [outsAt0_B m c t h0 h1]
  dsimp only
  exact Cert.Pieces.middle_hinge (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2

theorem middle_count (t : Fin cfg0.N) (h0 : ¬t.val % 4 = 0) (h1 : ¬t.val % 4 = 3) :
    (outsAt0 m c t.val t.isLt).2.2.2 = k0_pay2 (k0_pay10 (iblk m c 2 t) (iblk m c 3 t) (iblk m c 4 t)) (outsAt0 m c (t.val - 1) (Nat.lt_of_le_of_lt (Nat.sub_le _ _) t.isLt)).2.2.2 := by
  rw [outsAt0_B m c t h0 h1]
  dsimp only
  exact Cert.Pieces.middle_count (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2

theorem last_hinge (t : Fin cfg0.N) (h0 : ¬t.val % 4 = 0) (h1 : t.val % 4 = 3) :
    (outsAt0 m c t.val t.isLt).2.2.1 = k0_pay1 (k0_pay9 (iblk m c 0 t) (iblk m c 1 t) (iblk m c 2 t) (iblk m c 3 t) (iblk m c 4 t)) (outsAt0 m c (t.val - 1) (Nat.lt_of_le_of_lt (Nat.sub_le _ _) t.isLt)).2.2.1 := by
  rw [outsAt0_C m c t h0 h1]
  dsimp only
  exact Cert.Pieces.last_hinge (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2

theorem last_count (t : Fin cfg0.N) (h0 : ¬t.val % 4 = 0) (h1 : t.val % 4 = 3) :
    (outsAt0 m c t.val t.isLt).2.2.2 = k0_pay2 (k0_pay10 (iblk m c 2 t) (iblk m c 3 t) (iblk m c 4 t)) (outsAt0 m c (t.val - 1) (Nat.lt_of_le_of_lt (Nat.sub_le _ _) t.isLt)).2.2.2 := by
  rw [outsAt0_C m c t h0 h1]
  dsimp only
  exact Cert.Pieces.last_count (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2

theorem last_hinge_out (t : Fin cfg0.N) (h0 : ¬t.val % 4 = 0) (h1 : t.val % 4 = 3) :
    (outsAt0 m c t.val t.isLt).1 = k0_pay3 (k0_pay1 (k0_pay9 (iblk m c 0 t) (iblk m c 1 t) (iblk m c 2 t) (iblk m c 3 t) (iblk m c 4 t)) (outsAt0 m c (t.val - 1) (Nat.lt_of_le_of_lt (Nat.sub_le _ _) t.isLt)).2.2.1) := by
  rw [outsAt0_C m c t h0 h1]
  dsimp only
  exact Cert.Pieces.last_hinge_out (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2

theorem last_count_out (t : Fin cfg0.N) (h0 : ¬t.val % 4 = 0) (h1 : t.val % 4 = 3) :
    (outsAt0 m c t.val t.isLt).2.1 = k0_pay4 (k0_pay2 (k0_pay10 (iblk m c 2 t) (iblk m c 3 t) (iblk m c 4 t)) (outsAt0 m c (t.val - 1) (Nat.lt_of_le_of_lt (Nat.sub_le _ _) t.isLt)).2.2.2) := by
  rw [outsAt0_C m c t h0 h1]
  dsimp only
  exact Cert.Pieces.last_count_out (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2

/-! ## The running totals -/

/-- Tile (I, J)'s hinge total; 0 outside the 16-by-4 grid of tiles. -/
def hingeTile (I J : ℕ) : EReal :=
  if h : I < 16 ∧ J < 4 then tileTotal (laterHinge (P m c) (T m c)) (flag (E m c)) ⟨I, h.1⟩ ⟨J, h.2⟩ else 0

/-- Tile (I, J)'s count; 0 outside the grid of tiles. -/
def countTile (I J : ℕ) : EReal :=
  if h : I < 16 ∧ J < 4 then tileTotal (laterUnit (T m c)) (flag (E m c)) ⟨I, h.1⟩ ⟨J, h.2⟩ else 0

theorem hingeTile_at (t : Fin cfg0.N) :
    tileTotal (laterHinge (P m c) (T m c)) (flag (E m c)) (tileRow t) (tileCol t) = hingeTile m c (t.val / 4) (t.val % 4) := by
  unfold hingeTile
  rw [dif_pos ⟨(tileRow t).isLt, (tileCol t).isLt⟩]
  rfl

theorem countTile_at (t : Fin cfg0.N) :
    tileTotal (laterUnit (T m c)) (flag (E m c)) (tileRow t) (tileCol t) = countTile m c (t.val / 4) (t.val % 4) := by
  unfold countTile
  rw [dif_pos ⟨(tileRow t).isLt, (tileCol t).isLt⟩]
  rfl

/-- After point n every lane of the hinge accumulator holds the totals of tiles (n / 4, 0) … (n / 4, n % 4). -/
theorem hinge_run : ∀ (n : ℕ) (hn : n < cfg0.N) (l : Fin 128),
    (outsAt0 m c n hn).2.2.1 (ix2 (0 : Fin 1) l) = ∑ J ∈ Finset.range (n % 4 + 1), hingeTile m c (n / 4) J := by
  intro n
  induction n with
  | zero =>
    intro hn l
    refine (congrFun (first_hinge m c (⟨0, hn⟩ : Fin cfg0.N) rfl (by show ¬((0 : ℕ) % 4 = 3); decide)) (ix2 (0 : Fin 1) l)).trans ?_
    refine (tile_hinge m c (⟨0, hn⟩ : Fin cfg0.N) _ l).trans ?_
    rw [Cert.Tile.zero_entry, zero_add, hingeTile_at]
    exact (Finset.sum_range_one _).symm
  | succ k ih =>
    intro hn l
    by_cases h0 : (k + 1) % 4 = 0
    · refine (congrFun (first_hinge m c (⟨k + 1, hn⟩ : Fin cfg0.N) h0 (by show ¬(k + 1) % 4 = 3; omega)) (ix2 (0 : Fin 1) l)).trans ?_
      refine (tile_hinge m c (⟨k + 1, hn⟩ : Fin cfg0.N) _ l).trans ?_
      rw [Cert.Tile.zero_entry, zero_add, hingeTile_at]
      show hingeTile m c ((k + 1) / 4) ((k + 1) % 4) = _
      rw [h0]
      exact (Finset.sum_range_one _).symm
    · have e : (outsAt0 m c (k + 1) hn).2.2.1
          = k0_pay1 (k0_pay9 (iblk m c 0 (⟨k + 1, hn⟩ : Fin cfg0.N)) (iblk m c 1 (⟨k + 1, hn⟩ : Fin cfg0.N)) (iblk m c 2 (⟨k + 1, hn⟩ : Fin cfg0.N)) (iblk m c 3 (⟨k + 1, hn⟩ : Fin cfg0.N)) (iblk m c 4 (⟨k + 1, hn⟩ : Fin cfg0.N))) (outsAt0 m c k (Nat.lt_of_succ_lt hn)).2.2.1 := by
        by_cases h1 : (k + 1) % 4 = 3
        · exact last_hinge m c (⟨k + 1, hn⟩ : Fin cfg0.N) h0 h1
        · exact middle_hinge m c (⟨k + 1, hn⟩ : Fin cfg0.N) h0 h1
      refine (congrFun e (ix2 (0 : Fin 1) l)).trans ?_
      refine (tile_hinge m c (⟨k + 1, hn⟩ : Fin cfg0.N) _ l).trans ?_
      rw [hingeTile_at, ih (Nat.lt_of_succ_lt hn) l]
      show _ + hingeTile m c ((k + 1) / 4) ((k + 1) % 4) = _
      have e1 : (k + 1) / 4 = k / 4 := by omega
      have e2 : (k + 1) % 4 = k % 4 + 1 := by omega
      rw [e1, e2]
      exact (Finset.sum_range_succ (fun J => hingeTile m c (k / 4) J) (k % 4 + 1)).symm

/-- After point n every lane of the count accumulator holds the counts of tiles (n / 4, 0) … (n / 4, n % 4). -/
theorem count_run : ∀ (n : ℕ) (hn : n < cfg0.N) (l : Fin 128),
    (outsAt0 m c n hn).2.2.2 (ix2 (0 : Fin 1) l) = ∑ J ∈ Finset.range (n % 4 + 1), countTile m c (n / 4) J := by
  intro n
  induction n with
  | zero =>
    intro hn l
    refine (congrFun (first_count m c (⟨0, hn⟩ : Fin cfg0.N) rfl (by show ¬((0 : ℕ) % 4 = 3); decide)) (ix2 (0 : Fin 1) l)).trans ?_
    refine (tile_count m c (⟨0, hn⟩ : Fin cfg0.N) _ l).trans ?_
    rw [Cert.Tile.zero_entry', zero_add, countTile_at]
    exact (Finset.sum_range_one _).symm
  | succ k ih =>
    intro hn l
    by_cases h0 : (k + 1) % 4 = 0
    · refine (congrFun (first_count m c (⟨k + 1, hn⟩ : Fin cfg0.N) h0 (by show ¬(k + 1) % 4 = 3; omega)) (ix2 (0 : Fin 1) l)).trans ?_
      refine (tile_count m c (⟨k + 1, hn⟩ : Fin cfg0.N) _ l).trans ?_
      rw [Cert.Tile.zero_entry', zero_add, countTile_at]
      show countTile m c ((k + 1) / 4) ((k + 1) % 4) = _
      rw [h0]
      exact (Finset.sum_range_one _).symm
    · have e : (outsAt0 m c (k + 1) hn).2.2.2
          = k0_pay2 (k0_pay10 (iblk m c 2 (⟨k + 1, hn⟩ : Fin cfg0.N)) (iblk m c 3 (⟨k + 1, hn⟩ : Fin cfg0.N)) (iblk m c 4 (⟨k + 1, hn⟩ : Fin cfg0.N))) (outsAt0 m c k (Nat.lt_of_succ_lt hn)).2.2.2 := by
        by_cases h1 : (k + 1) % 4 = 3
        · exact last_count m c (⟨k + 1, hn⟩ : Fin cfg0.N) h0 h1
        · exact middle_count m c (⟨k + 1, hn⟩ : Fin cfg0.N) h0 h1
      refine (congrFun e (ix2 (0 : Fin 1) l)).trans ?_
      refine (tile_count m c (⟨k + 1, hn⟩ : Fin cfg0.N) _ l).trans ?_
      rw [countTile_at, ih (Nat.lt_of_succ_lt hn) l]
      show _ + countTile m c ((k + 1) / 4) ((k + 1) % 4) = _
      have e1 : (k + 1) / 4 = k / 4 := by omega
      have e2 : (k + 1) % 4 = k % 4 + 1 := by omega
      rw [e1, e2]
      exact (Finset.sum_range_succ (fun J => countTile m c (k / 4) J) (k % 4 + 1)).symm

/-! ## What is stored into the outputs -/

/-- A row tile's hinge total: its four tiles' totals. -/
def rowHinge (I : ℕ) : EReal := ∑ J ∈ Finset.range 4, hingeTile m c I J

/-- A row tile's count. -/
def rowCount (I : ℕ) : EReal := ∑ J ∈ Finset.range 4, countTile m c I J

/-- At a row tile's last column tile every lane of the first output block is the row tile's hinge total. -/
theorem hinge_out (t : Fin cfg0.N) (h1 : t.val % 4 = 3) (l : Fin 128) :
    (outsAt0 m c t.val t.isLt).1 (ix3 (0 : Fin 1) (0 : Fin 1) l) = rowHinge m c (t.val / 4) := by
  have h0 : ¬t.val % 4 = 0 := by omega
  refine (congrFun (last_hinge_out m c t h0 h1) (ix3 (0 : Fin 1) (0 : Fin 1) l)).trans ?_
  refine (Cert.Tile.out_entry _ l).trans ?_
  refine (congrFun (last_hinge m c t h0 h1) (ix2 (0 : Fin 1) l)).symm.trans ?_
  rw [hinge_run m c t.val t.isLt l, h1]
  rfl

/-- … and every lane of the second output block is the row tile's count. -/
theorem count_out (t : Fin cfg0.N) (h1 : t.val % 4 = 3) (l : Fin 128) :
    (outsAt0 m c t.val t.isLt).2.1 (ix3 (0 : Fin 1) (0 : Fin 1) l) = rowCount m c (t.val / 4) := by
  have h0 : ¬t.val % 4 = 0 := by omega
  refine (congrFun (last_count_out m c t h0 h1) (ix3 (0 : Fin 1) (0 : Fin 1) l)).trans ?_
  refine (Cert.Tile.out_entry' _ l).trans ?_
  refine (congrFun (last_count m c t h0 h1) (ix2 (0 : Fin 1) l)).symm.trans ?_
  rw [count_run m c t.val t.isLt l, h1]
  rfl

end Cert.Acc

end
-- ==== Proof.Totals.lean ====
/-
  Summing the row tiles. A row tile's total is the sum of its four column tiles' totals; the sixteen row tiles' totals
  add up to the total over all 16 x 4 tiles, which is the sum over all 8192 x 8192 ordered pairs: for the squared
  hinges, the sum over the counted pairs; for the 0/1 cells, the number of counted pairs.
-/
import proofs.«158161_j49297634624085_2_alg».proof.Proof.Accumulate
import proofs.«158161_j49297634624085_2_alg».proof.Proof.PairLaws

noncomputable section

namespace Cert.Acc

open Idealize.ShloMosaic Idealize.ShloMosaic.TcCoe Cert.KernelIdeal Cert.KernelIdeal.Gen Cert.PairSpec

variable (m : (ℓ : Loc nD τ sig) → Buf (Elt Ideal) ℓ) (c : Dev nD)

/-- A row tile's hinge total over its four column tiles. -/
theorem rowHinge_eq (I : Fin 16) :
    rowHinge m c I.val = ∑ J : Fin 4, tileTotal (laterHinge (P m c) (T m c)) (flag (E m c)) I J := by
  unfold rowHinge
  rw [Finset.sum_range]
  refine Finset.sum_congr rfl fun J _ => ?_
  unfold hingeTile
  rw [dif_pos ⟨I.isLt, J.isLt⟩]

/-- A row tile's count over its four column tiles. -/
theorem rowCount_eq (I : Fin 16) :
    rowCount m c I.val = ∑ J : Fin 4, tileTotal (laterUnit (T m c)) (flag (E m c)) I J := by
  unfold rowCount
  rw [Finset.sum_range]
  refine Finset.sum_congr rfl fun J _ => ?_
  unfold countTile
  rw [dif_pos ⟨I.isLt, J.isLt⟩]

/-- The sixteen row tiles' hinge totals add up to the sum of the squared hinges over the counted pairs. -/
theorem hinge_total : ∑ I : Fin 16, rowHinge m c I.val = hingeSum (P m c) (T m c) (E m c) := by
  rw [← Cert.PairLaws.tiled_hingeSum]
  unfold tiledTotal
  exact Finset.sum_congr rfl fun I _ => rowHinge_eq m c I

/-- The sixteen row tiles' counts add up to the number of counted pairs. -/
theorem count_total : ∑ I : Fin 16, rowCount m c I.val = (((pairCount (T m c) (E m c) : ℕ) : ℝ) : EReal) := by
  rw [← Cert.PairLaws.tiled_pairCount]
  unfold tiledTotal
  exact Finset.sum_congr rfl fun I _ => rowCount_eq m c I

end Cert.Acc

end
-- ==== Proof.OutArrays.lean ====
/-
  From what the tiled program writes back to the two output arrays.

  Each output array has 16 rows of 128 lanes (with a unit middle axis), one row per row tile. Grid point t of the
  64 = 16 * 4 belongs to row tile t / 4; the output block of that row tile is written back to the array only at the
  last of the tile's four points, t % 4 = 3. If what is written back there has, in every lane, the value g (t / 4),
  then after the run row I of the array holds g I in every lane: row I is covered by the point 4 I + 3, and every
  point that writes row I writes the same function of I.
-/
import proofs.«158161_j49297634624085_2_alg».proof.Proof.Gen.KernelIdeal.Frame
import Idealize.ShloMosaic.Lib.Pipeline.Value
import Idealize.ShloMosaic.Lib.ValueIdx

noncomputable section

namespace Cert.Outs

open Idealize.ShloMosaic Idealize.ShloMosaic.ValueIdx Idealize.ShloMosaic.TcCoe Idealize.SL.Sem
open Cert.KernelIdeal Cert.KernelIdeal.Gen
open Idealize.ShloMosaic.Pipeline (Dat)

variable (m : (ℓ : Loc nD τ sig) → Buf (Elt Ideal) ℓ) (c : Dev nD)

/-! ## Output window 5: the sums of the squared hinges -/

/-- The printed index map of window 5, decided over the grid: point t's block is row tile t / 4, at 0 on the other
    two axes. -/
theorem block_index5 : ∀ t : Fin cfg0.N, win0_5.index t (0 : Fin 3) = t.val / 4
    ∧ win0_5.index t (1 : Fin 3) = 0 ∧ win0_5.index t (2 : Fin 3) = 0 :=
  (by decide +kernel : ∀ t : Fin grid0.N, _)

/-- What a writing point t writes back is block t of the array that holds g I in every lane of row I. -/
theorem written5_eq (g : ℕ → EReal)
    (hout : ∀ t : Fin cfg0.N, t.val % 4 = 3 → ∀ l : Fin 128, (outsAt0 m c t.val t.isLt).1 (ix3 (0 : Fin 1) (0 : Fin 1) l) = g (t.val / 4))
    (t : Fin cfg0.N) (ht : t.val % 4 = 3) :
    (dats m 0 c).flushed 5 t = ((cfg0.win 5).blk t).view.read (Elt Ideal) (fun i : S16x1x128.Idx => g (i 0).val) := by
  show (cfg0.win 5).cut (grid0.coords t) ((dats m 0 c).after 5 t) = _
  rw [after0_5]
  obtain ⟨e0, e1, e2⟩ := block_index5 t
  funext y
  -- inside the block the first two coordinates are 0, and every lane holds g (t / 4)
  have hval : ∀ y' : S1x1x128.Idx, (outsAt0 m c t.val t.isLt).1 y' = g (t.val / 4) := fun y' => by
    have h0 : (y' 0).val < 1 := (y' 0).isLt
    have h1 : (y' 1).val < 1 := (y' 1).isLt
    have hy : y' = ix3 (0 : Fin 1) (0 : Fin 1) (y' 2 : Fin 128) := by
      funext a
      match a with
      | ⟨0, _⟩ => exact Fin.ext (by show (y' 0).val = 0; omega)
      | ⟨1, _⟩ => exact Fin.ext (by show (y' 1).val = 0; omega)
      | ⟨2, _⟩ => rfl
    rw [hy]; exact hout t ht (y' 2)
  refine (hval y).trans (congrArg g ?_)
  -- the block's row in the array is the block index times the block's height 1, plus the row inside the block
  have h0 : ((y : S1x1x128.Idx) 0).val < 1 := ((y : S1x1x128.Idx) 0).isLt
  show t.val / 4 = win0_5.index t (0 : Fin 3) * 1 + 1 * ((y : S1x1x128.Idx) 0).val
  omega

/-- An index of the array is in point t's block iff each coordinate is in the block's range on its axis. -/
theorem mem_block5 (t : Fin cfg0.N) (i : S16x1x128.Idx) :
    i ∈ ((cfg0.win 5).blk t).view.set ↔ ∀ a : Fin 3, win0_5.index t a * S1x1x128.size a ≤ (i a).val ∧ (i a).val < win0_5.index t a * S1x1x128.size a + S1x1x128.size a := by
  show i ∈ ((View.whole main_v10_0).slice (win0_5.rect t)).set ↔ _
  rw [View.set_slice_whole, Rect.mem_set_unit]
  exact Iff.rfl

/-- Every index of the array is in the block of a writing point: row I is written at the point 4 I + 3. -/
theorem covered5 (i : S16x1x128.Idx) :
    ∃ t : Fin cfg0.N, (cfg0.win 5).flush t = true ∧ i ∈ ((cfg0.win 5).blk t).view.set := by
  have hN : cfg0.N = 64 := N_0
  have hi0 : (i 0).val < 16 := (i 0).isLt
  have hi1 : (i 1).val < 1 := (i 1).isLt
  have hi2 : (i 2).val < 128 := (i 2).isLt
  have hlt : 4 * (i 0).val + 3 < cfg0.N := by omega
  have hmod : (4 * (i 0).val + 3) % 4 = 3 := by omega
  have hdiv : (4 * (i 0).val + 3) / 4 = (i 0).val := by omega
  refine ⟨⟨4 * (i 0).val + 3, hlt⟩, (flush0_5 _).mpr hmod, ?_⟩
  obtain ⟨e0, e1, e2⟩ := block_index5 ⟨4 * (i 0).val + 3, hlt⟩
  have e0' : win0_5.index ⟨4 * (i 0).val + 3, hlt⟩ (0 : Fin 3) = (i 0).val := e0.trans hdiv
  rw [mem_block5]
  intro a
  match a with
  | ⟨0, _⟩ =>
    show win0_5.index ⟨4 * (i 0).val + 3, hlt⟩ (0 : Fin 3) * 1 ≤ (i 0).val ∧ (i 0).val < win0_5.index ⟨4 * (i 0).val + 3, hlt⟩ (0 : Fin 3) * 1 + 1
    omega
  | ⟨1, _⟩ =>
    show win0_5.index ⟨4 * (i 0).val + 3, hlt⟩ (1 : Fin 3) * 1 ≤ (i 1).val ∧ (i 1).val < win0_5.index ⟨4 * (i 0).val + 3, hlt⟩ (1 : Fin 3) * 1 + 1
    omega
  | ⟨2, _⟩ =>
    show win0_5.index ⟨4 * (i 0).val + 3, hlt⟩ (2 : Fin 3) * 128 ≤ (i 2).val ∧ (i 2).val < win0_5.index ⟨4 * (i 0).val + 3, hlt⟩ (2 : Fin 3) * 128 + 128
    omega

/-- The array after the run: row I holds g I in every lane. -/
theorem hinge_array (g : ℕ → EReal)
    (hout : ∀ t : Fin cfg0.N, t.val % 4 = 3 → ∀ l : Fin 128, (outsAt0 m c t.val t.isLt).1 (ix3 (0 : Fin 1) (0 : Fin 1) l) = g (t.val / 4)) :
    (dats m 0 c).arrAt 5 cfg0.N = fun i : S16x1x128.Idx => g (i 0).val :=
  (dats m 0 c).arrAt_eq_of_cover 5 (fun i : S16x1x128.Idx => g (i 0).val)
    (fun t hf => written5_eq m c g hout t ((flush0_5 t).mp hf)) covered5

/-! ## Output window 6: the counts -/

/-- The printed index map of window 6, decided over the grid: point t's block is row tile t / 4, at 0 on the other
    two axes. -/
theorem block_index6 : ∀ t : Fin cfg0.N, win0_6.index t (0 : Fin 3) = t.val / 4
    ∧ win0_6.index t (1 : Fin 3) = 0 ∧ win0_6.index t (2 : Fin 3) = 0 :=
  (by decide +kernel : ∀ t : Fin grid0.N, _)

/-- What a writing point t writes back is block t of the array that holds g I in every lane of row I. -/
theorem written6_eq (g : ℕ → EReal)
    (hout : ∀ t : Fin cfg0.N, t.val % 4 = 3 → ∀ l : Fin 128, (outsAt0 m c t.val t.isLt).2.1 (ix3 (0 : Fin 1) (0 : Fin 1) l) = g (t.val / 4))
    (t : Fin cfg0.N) (ht : t.val % 4 = 3) :
    (dats m 0 c).flushed 6 t = ((cfg0.win 6).blk t).view.read (Elt Ideal) (fun i : S16x1x128.Idx => g (i 0).val) := by
  show (cfg0.win 6).cut (grid0.coords t) ((dats m 0 c).after 6 t) = _
  rw [after0_6]
  obtain ⟨e0, e1, e2⟩ := block_index6 t
  funext y
  -- inside the block the first two coordinates are 0, and every lane holds g (t / 4)
  have hval : ∀ y' : S1x1x128.Idx, (outsAt0 m c t.val t.isLt).2.1 y' = g (t.val / 4) := fun y' => by
    have h0 : (y' 0).val < 1 := (y' 0).isLt
    have h1 : (y' 1).val < 1 := (y' 1).isLt
    have hy : y' = ix3 (0 : Fin 1) (0 : Fin 1) (y' 2 : Fin 128) := by
      funext a
      match a with
      | ⟨0, _⟩ => exact Fin.ext (by show (y' 0).val = 0; omega)
      | ⟨1, _⟩ => exact Fin.ext (by show (y' 1).val = 0; omega)
      | ⟨2, _⟩ => rfl
    rw [hy]; exact hout t ht (y' 2)
  refine (hval y).trans (congrArg g ?_)
  -- the block's row in the array is the block index times the block's height 1, plus the row inside the block
  have h0 : ((y : S1x1x128.Idx) 0).val < 1 := ((y : S1x1x128.Idx) 0).isLt
  show t.val / 4 = win0_6.index t (0 : Fin 3) * 1 + 1 * ((y : S1x1x128.Idx) 0).val
  omega

/-- An index of the array is in point t's block iff each coordinate is in the block's range on its axis. -/
theorem mem_block6 (t : Fin cfg0.N) (i : S16x1x128.Idx) :
    i ∈ ((cfg0.win 6).blk t).view.set ↔ ∀ a : Fin 3, win0_6.index t a * S1x1x128.size a ≤ (i a).val ∧ (i a).val < win0_6.index t a * S1x1x128.size a + S1x1x128.size a := by
  show i ∈ ((View.whole main_v10_1).slice (win0_6.rect t)).set ↔ _
  rw [View.set_slice_whole, Rect.mem_set_unit]
  exact Iff.rfl

/-- Every index of the array is in the block of a writing point: row I is written at the point 4 I + 3. -/
theorem covered6 (i : S16x1x128.Idx) :
    ∃ t : Fin cfg0.N, (cfg0.win 6).flush t = true ∧ i ∈ ((cfg0.win 6).blk t).view.set := by
  have hN : cfg0.N = 64 := N_0
  have hi0 : (i 0).val < 16 := (i 0).isLt
  have hi1 : (i 1).val < 1 := (i 1).isLt
  have hi2 : (i 2).val < 128 := (i 2).isLt
  have hlt : 4 * (i 0).val + 3 < cfg0.N := by omega
  have hmod : (4 * (i 0).val + 3) % 4 = 3 := by omega
  have hdiv : (4 * (i 0).val + 3) / 4 = (i 0).val := by omega
  refine ⟨⟨4 * (i 0).val + 3, hlt⟩, (flush0_6 _).mpr hmod, ?_⟩
  obtain ⟨e0, e1, e2⟩ := block_index6 ⟨4 * (i 0).val + 3, hlt⟩
  have e0' : win0_6.index ⟨4 * (i 0).val + 3, hlt⟩ (0 : Fin 3) = (i 0).val := e0.trans hdiv
  rw [mem_block6]
  intro a
  match a with
  | ⟨0, _⟩ =>
    show win0_6.index ⟨4 * (i 0).val + 3, hlt⟩ (0 : Fin 3) * 1 ≤ (i 0).val ∧ (i 0).val < win0_6.index ⟨4 * (i 0).val + 3, hlt⟩ (0 : Fin 3) * 1 + 1
    omega
  | ⟨1, _⟩ =>
    show win0_6.index ⟨4 * (i 0).val + 3, hlt⟩ (1 : Fin 3) * 1 ≤ (i 1).val ∧ (i 1).val < win0_6.index ⟨4 * (i 0).val + 3, hlt⟩ (1 : Fin 3) * 1 + 1
    omega
  | ⟨2, _⟩ =>
    show win0_6.index ⟨4 * (i 0).val + 3, hlt⟩ (2 : Fin 3) * 128 ≤ (i 2).val ∧ (i 2).val < win0_6.index ⟨4 * (i 0).val + 3, hlt⟩ (2 : Fin 3) * 128 + 128
    omega

/-- The array after the run: row I holds g I in every lane. -/
theorem count_array (g : ℕ → EReal)
    (hout : ∀ t : Fin cfg0.N, t.val % 4 = 3 → ∀ l : Fin 128, (outsAt0 m c t.val t.isLt).2.1 (ix3 (0 : Fin 1) (0 : Fin 1) l) = g (t.val / 4)) :
    (dats m 0 c).arrAt 6 cfg0.N = fun i : S16x1x128.Idx => g (i 0).val :=
  (dats m 0 c).arrAt_eq_of_cover 6 (fun i : S16x1x128.Idx => g (i 0).val)
    (fun t hf => written6_eq m c g hout t ((flush0_6 t).mp hf)) covered6

end Cert.Outs

end
-- ==== Proof.HostTail.lean ====
/-
  The host operations the kernel program runs after its tiled region, as one function of the five arrays they read: the
  sums of lane 0 of the sixteen tile totals and tile counts, their quotient with the count clamped below at 1, the
  regression term over the three flat vectors, and the half-and-half combination. Read at the scalar index, the
  value is stated over the sixteen tile entries and the regression stage of the other program.
-/
import proofs.«158161_j49297634624085_2_alg».proof.Proof.Gen.KernelIdeal.Frame.Runs
import proofs.«158161_j49297634624085_2_alg».proof.Proof.Gen.ReferenceIdeal.Read
import proofs.«158161_j49297634624085_2_alg».proof.Proof.PairSpec
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws
import Idealize.ShloMosaic.Lib.IdealHost

noncomputable section

namespace Cert.Tail

open Cert.KernelIdeal Cert.KernelIdeal.Gen Idealize.ShloMosaic Idealize.ShloMosaic.TcCoe Idealize.ShloMosaic.ValueIdx
open Idealize.SL.Sem

/-- 0.5 as the f32 word -/
abbrev half : EReal := FloatOps.ofBits (F := Ideal) .f32 0x3F000000#32

/-- The scalars, the flat vectors of length 8192 and the sixteen tile results, at the ideal values. -/
abbrev Scal : Type := (⟨S_, .f32⟩ : BufTy).Contents (Elt Ideal)
abbrev Flat : Type := (⟨S8192, .f32⟩ : BufTy).Contents (Elt Ideal)
abbrev Tiles : Type := (⟨S16x1x128, .f32⟩ : BufTy).Contents (Elt Ideal)

/-- Lane 0 of each of the sixteen tile results, summed from zero. -/
def tileSum (o : Tiles) : Scal :=
  Host.reduceAdd (F := Ideal)
    (shapeCast S16 (extractStridedSlice S16x1x1 ![0, 0, 0] o slices_S16x1x128_S16x1x1_0_0_0 : (⟨S16x1x1, .f32⟩ : BufTy).Contents (Elt Ideal))
      shapeCasts_S16x1x1_S16 : (⟨S16, .f32⟩ : BufTy).Contents (Elt Ideal))
    (constant (F := Ideal) S_ .f32 0x00000000#32) reducesTo_S16_S_d0 h_S_

/-- The flat vector of zeros. -/
def zeros : Flat := broadcastInDim S8192 ![] bcast_S_S8192 (constant (F := Ideal) S_ .f32 0x00000000#32)

/-- The residual a0 - a2, clamped below at zero where a4 is zero. -/
def clamped (a0 a2 a4 : Flat) : Flat :=
  select (cmpf (F := Ideal) (s := S8192) (φ := .f32) .oeq a4 zeros)
    (maximumf (F := Ideal) (s := S8192) (φ := .f32) (subf (F := Ideal) (s := S8192) (φ := .f32) a0 a2) zeros)
    (subf (F := Ideal) (s := S8192) (φ := .f32) a0 a2)

/-- The regression term: the mean of the squares of the clamped residuals. -/
def regression (a0 a2 a4 : Flat) : Scal :=
  Host.divf (F := Ideal) (s := S_) (φ := .f32)
    (Host.reduceAdd (F := Ideal) (mulf (F := Ideal) (s := S8192) (φ := .f32) (clamped a0 a2 a4) (clamped a0 a2 a4))
      (constant (F := Ideal) S_ .f32 0x00000000#32) reducesTo_S8192_S_d0 h_S_)
    (constant (F := Ideal) S_ .f32 0x46000000#32)

/-- The whole tail: half the ranking quotient plus half the regression term. -/
def tailTerm (o5 o6 : Tiles) (a0 a2 a4 : Flat) : Scal :=
  addf (F := Ideal) (s := S_) (φ := .f32)
    (mulf (F := Ideal) (s := S_) (φ := .f32) (constant (F := Ideal) S_ .f32 0x3F000000#32)
      (Host.divf (F := Ideal) (s := S_) (φ := .f32) (tileSum o5)
        (maximumf (F := Ideal) (s := S_) (φ := .f32) (tileSum o6) (constant (F := Ideal) S_ .f32 0x3F800000#32))))
    (mulf (F := Ideal) (s := S_) (φ := .f32) (constant (F := Ideal) S_ .f32 0x3F000000#32) (regression a0 a2 a4))

/-- The tail's last buffer holds, from any contents, the tail's function of the five arrays it reads. -/
theorem tail_term (W : Valuation τ sig (Elt Ideal)) :
    (StableHlo.after (List.flatten [hostOps1 (F := Ideal), hostOps1_1 (F := Ideal), hostOps1_2 (F := Ideal)]) W (Proc.devRef .tc main_v30) : Scal)
      = tailTerm (W (Proc.devRef .tc main_v10_0)) (W (Proc.devRef .tc main_v10_1)) (W (Proc.devRef .tc main_v0))
          (W (Proc.devRef .tc main_v2)) (W (Proc.devRef .tc main_v4)) := by
  simp only [hostOps1, hostOps1_1, hostOps1_2, List.flatten_cons, List.flatten_nil, List.append_nil, List.cons_append,
    List.nil_append]
  after_results_simp
  rfl

/-! ## A sum over a rank-1 index set is the sum over its coordinate -/

/-- A rank-1 index set is its coordinate's range … -/
private def idxEquiv1 {n : ℕ} : (⟨1, ![n]⟩ : Shape).Idx ≃ Fin n where
  toFun j := j 0
  invFun a := ix1 a
  left_inv j := (eq_ix1 j).symm
  right_inv _ := rfl

/-- … so a sum over it is the sum over the coordinate. -/
private theorem sum_idx1 {M : Type*} [AddCommMonoid M] {n : ℕ} (f : (⟨1, ![n]⟩ : Shape).Idx → M) :
    ∑ j, f j = ∑ a : Fin n, f (ix1 a) := by
  rw [← Equiv.sum_comp (idxEquiv1 (n := n)).symm f]
  rfl

/-! ## The tile sums at the scalar index -/

/-- Entry I of the sliced and flattened tile results is lane 0 of tile I. -/
private theorem lane0_apply (o : Tiles) (I : Fin 16) :
    (shapeCast S16 (extractStridedSlice S16x1x1 ![0, 0, 0] o slices_S16x1x128_S16x1x1_0_0_0 : (⟨S16x1x1, .f32⟩ : BufTy).Contents (Elt Ideal))
        shapeCasts_S16x1x1_S16 : (⟨S16, .f32⟩ : BufTy).Contents (Elt Ideal)) (ix1 I)
      = o (ix3 I (0 : Fin 1) (0 : Fin 128)) := by
  rw [shapeCast_apply _ shapeCasts_S16x1x1_S16 (ix1 I) (ix3 I (0 : Fin 1) (0 : Fin 1))
    (by rw [Shape.rowMajor_val_three, Shape.rowMajor_val_one]; show (I.val * 1 + 0) * 1 + 0 = I.val; omega)]
  exact extractStridedSlice_apply ![0, 0, 0] o slices_S16x1x128_S16x1x1_0_0_0 (ix3 I (0 : Fin 1) (0 : Fin 1))
    (ix3 I (0 : Fin 1) (0 : Fin 128))
    (fun a => match a with
      | ⟨0, _⟩ => by show I.val = 0 + I.val; omega
      | ⟨1, _⟩ => rfl
      | ⟨2, _⟩ => rfl)

/-- The sum of lane 0 of the sixteen tile results, from zero. -/
private theorem tileSum_apply (o : Tiles) (i : S_.Idx) :
    tileSum o i = PairSpec.zero + ∑ I : Fin 16, o (ix3 I (0 : Fin 1) (0 : Fin 128)) := by
  unfold tileSum
  rw [hostReduceAdd_apply, Ideal.hostReduceAdd_total reducesTo_S16_S_d0 (fun b => b.elim0), sum_idx1]
  exact congrArg (PairSpec.zero + ·) (Finset.sum_congr rfl fun I _ => lane0_apply o I)

/-! ## The regression term is the other program's stage -/

/-- On the three flat vectors cut from the two arguments, the regression term is the other program's regression stage:
    the same operations composed in the same order. -/
private theorem regression_eq (x0 : (⟨S8192x1, .f32⟩ : BufTy).Contents (Elt Ideal))
    (x1 : (⟨S8192x2, .f32⟩ : BufTy).Contents (Elt Ideal)) :
    regression (shapeCast _ x0 shapeCasts_S8192x1_S8192)
        (shapeCast _ (extractStridedSlice S8192x1 ![0, 0] x1 slices_S8192x2_S8192x1_0_0) shapeCasts_S8192x1_S8192)
        (shapeCast _ (extractStridedSlice S8192x1 ![0, 1] x1 slices_S8192x2_S8192x1_0_1) shapeCasts_S8192x1_S8192)
      = Cert.ReferenceIdeal.Read.val_main_v13 (F := Ideal) x0 x1 := rfl

/-! ## The tail's value -/

theorem tail_value (W : Valuation τ sig (Elt Ideal))
    (o5 o6 : S16x1x128.Idx → EReal)
    (x0 : (⟨S8192x1, .f32⟩ : BufTy).Contents (Elt Ideal)) (x1 : (⟨S8192x2, .f32⟩ : BufTy).Contents (Elt Ideal))
    (h5 : (W (Proc.devRef .tc main_v10_0) : S16x1x128.Idx → EReal) = o5)
    (h6 : (W (Proc.devRef .tc main_v10_1) : S16x1x128.Idx → EReal) = o6)
    (h0 : (W (Proc.devRef .tc main_v0) : S8192.Idx → EReal) = shapeCast _ x0 shapeCasts_S8192x1_S8192)
    (h2 : (W (Proc.devRef .tc main_v2) : S8192.Idx → EReal) = shapeCast _ (extractStridedSlice S8192x1 ![0, 0] x1 slices_S8192x2_S8192x1_0_0) shapeCasts_S8192x1_S8192)
    (h4 : (W (Proc.devRef .tc main_v4) : S8192.Idx → EReal) = shapeCast _ (extractStridedSlice S8192x1 ![0, 1] x1 slices_S8192x2_S8192x1_0_1) shapeCasts_S8192x1_S8192)
    (i : S_.Idx) :
    (StableHlo.after (List.flatten [hostOps1, hostOps1_1, hostOps1_2]) W (Proc.devRef .tc main_v30) : S_.Idx → EReal) i
      = FloatOps.addf (F := Ideal) (φ := .f32)
          (FloatOps.mulf (F := Ideal) (φ := .f32) half
            (FloatOps.hostDivf (F := Ideal) (φ := .f32)
              (PairSpec.zero + ∑ I : Fin 16, o5 (ValueIdx.ix3 I (0 : Fin 1) (0 : Fin 128)))
              (max (PairSpec.zero + ∑ I : Fin 16, o6 (ValueIdx.ix3 I (0 : Fin 1) (0 : Fin 128))) PairSpec.one)))
          (FloatOps.mulf (F := Ideal) (φ := .f32) half (Cert.ReferenceIdeal.Read.val_main_v13 (F := Ideal) x0 x1 i)) := by
  rw [tail_term W, h5, h6, h0, h2, h4]
  show FloatOps.addf (F := Ideal) (φ := .f32)
      (FloatOps.mulf (F := Ideal) (φ := .f32) half
        (FloatOps.hostDivf (F := Ideal) (φ := .f32) (tileSum o5 i) (max (tileSum o6 i) PairSpec.one)))
      (FloatOps.mulf (F := Ideal) (φ := .f32) half
        (regression (shapeCast _ x0 shapeCasts_S8192x1_S8192)
          (shapeCast _ (extractStridedSlice S8192x1 ![0, 0] x1 slices_S8192x2_S8192x1_0_0) shapeCasts_S8192x1_S8192)
          (shapeCast _ (extractStridedSlice S8192x1 ![0, 1] x1 slices_S8192x2_S8192x1_0_1) shapeCasts_S8192x1_S8192) i)) = _
  rw [tileSum_apply, tileSum_apply, regression_eq]

end Cert.Tail

end
-- ==== Proof.Result.lean ====
/-
  The value both programs end with, and that each of them does.

  With p, t, e the scores, times and event flags read off the two arguments, both results are
      0.5 * (S / max (C, 1)) + 0.5 * R,
  S the sum of the squared hinges over the counted pairs, C the number of counted pairs, R the regression mean, which
  the two programs compute by the same operations on the same three vectors.

  The reference forms S in one sum over all ordered pairs and C by an integer sum of the mask (at most 2^26 ones, so the
  32-bit sum is the number itself, and its signed maximum with 1 converted to a real is max (C, 1)). The tiled program
  leaves, per row tile, the tile's hinge total and count in its two output arrays; summing lane 0 over the sixteen row
  tiles gives S and C as a real, and the real maximum with 1.0 is the same max (C, 1).
-/
import proofs.«158161_j49297634624085_2_alg».proof.Proof.Gen.KernelIdeal.Frame
import proofs.«158161_j49297634624085_2_alg».proof.Proof.Gen.ReferenceIdeal.Read
import proofs.«158161_j49297634624085_2_alg».proof.Proof.PairSpec
import proofs.«158161_j49297634624085_2_alg».proof.Proof.PairLaws
import proofs.«158161_j49297634624085_2_alg».proof.Proof.RefSide
import proofs.«158161_j49297634624085_2_alg».proof.Proof.EntryArrays
import proofs.«158161_j49297634624085_2_alg».proof.Proof.Accumulate
import proofs.«158161_j49297634624085_2_alg».proof.Proof.Totals
import proofs.«158161_j49297634624085_2_alg».proof.Proof.OutArrays
import proofs.«158161_j49297634624085_2_alg».proof.Proof.HostTail

noncomputable section

namespace Cert.Result

open Idealize.ShloMosaic Idealize.ShloMosaic.TcCoe Idealize.ShloMosaic.ValueIdx Idealize.SL.Sem Cert.PairSpec

/-- The common result, as a function of the two argument arrays. -/
def G (x0 : (⟨Cert.ReferenceIdeal.S8192x1, .f32⟩ : BufTy).Contents (Elt Ideal))
    (x1 : (⟨Cert.ReferenceIdeal.S8192x2, .f32⟩ : BufTy).Contents (Elt Ideal)) : Cert.ReferenceIdeal.S_.Idx → EReal := fun i =>
  FloatOps.addf (F := Ideal) (φ := .f32)
    (FloatOps.mulf (F := Ideal) (φ := .f32) Cert.Tail.half
      (FloatOps.hostDivf (F := Ideal) (φ := .f32)
        (PairSpec.zero + hingeSum (scores x0) (times x1) (events x1))
        (((max (pairCount (times x1) (events x1)) 1 : ℕ) : ℝ) : EReal)))
    (FloatOps.mulf (F := Ideal) (φ := .f32) Cert.Tail.half (Cert.ReferenceIdeal.Read.val_main_v13 (F := Ideal) x0 x1 i))

/-! ## The reference -/

open Cert.ReferenceIdeal.Read in
/-- The reference's last stage is the common result. -/
theorem ref_eq (x0 : (⟨Cert.ReferenceIdeal.S8192x1, .f32⟩ : BufTy).Contents (Elt Ideal))
    (x1 : (⟨Cert.ReferenceIdeal.S8192x2, .f32⟩ : BufTy).Contents (Elt Ideal)) :
    val_main_v43 (F := Ideal) x0 x1 = G x0 x1 := by
  funext i
  rw [val_main_v43_apply, val_main_v41_apply, val_main_v42_apply, val_main_v40_apply, Cert.RefSide.ref_hingeSum,
    Cert.RefSide.ref_count]
  rfl

/-! ## The tiled program -/

section
open Cert.KernelIdeal Cert.KernelIdeal.Gen

variable (m : (ℓ : Loc nD τ sig) → Buf (Elt Ideal) ℓ) (ρ : Dev nD → PrngReg)

/-- The real maximum with 1.0 of a zero start plus a count is max (count, 1). -/
theorem clamp_count (n : ℕ) : max (PairSpec.zero + (((n : ℕ) : ℝ) : EReal)) PairSpec.one = (((max n 1 : ℕ) : ℝ) : EReal) := by
  rw [Cert.PairLaws.zero_eq, zero_add]
  exact Cert.PairLaws.max_count_one n

/-- What the lines after the tiles leave in the result: the common result of the two arguments. -/
theorem kernel_eq (c : Dev nD) :
    Pipeline.afterTail₀ cfgs (dats m) 0 (V0 m) [hostOps1, hostOps1_1, hostOps1_2] c main_v30
      = G (m ((c : Thread nD τ).loc main_arg0)) (m ((c : Thread nD τ).loc main_arg1)) := by
  funext i
  unfold Pipeline.afterTail₀
  refine (Cert.Tail.tail_value _ (fun j => Cert.Acc.rowHinge m c (j 0).val) (fun j => Cert.Acc.rowCount m c (j 0).val)
      (m ((c : Thread nD τ).loc main_arg0)) (m ((c : Thread nD τ).loc main_arg1)) ?h5 ?h6 ?h0 ?h2 ?h4 i).trans ?_
  case h5 =>
    exact (Pipeline.withArrays_arr spec0 launch0.win.arr_inj c _ _ 5).trans
      (Cert.Outs.hinge_array m c _ (Cert.Acc.hinge_out m c))
  case h6 =>
    exact (Pipeline.withArrays_arr spec0 launch0.win.arr_inj c _ _ 6).trans
      (Cert.Outs.count_array m c _ (Cert.Acc.count_out m c))
  case h0 =>
    exact (Pipeline.withArrays_of_ne _ c (V0 m c) _ main_v0 (by exact (by decide : ∀ w, Pipeline.arrRef spec0 w ≠ main_v0))).trans
      (Cert.Entry.kept_v0 m c)
  case h2 =>
    exact (Pipeline.withArrays_of_ne _ c (V0 m c) _ main_v2 (by exact (by decide : ∀ w, Pipeline.arrRef spec0 w ≠ main_v2))).trans
      (Cert.Entry.kept_v2 m c)
  case h4 =>
    exact (Pipeline.withArrays_of_ne _ c (V0 m c) _ main_v4 (by exact (by decide : ∀ w, Pipeline.arrRef spec0 w ≠ main_v4))).trans
      (Cert.Entry.kept_v4 m c)
  show FloatOps.addf (F := Ideal) (φ := .f32)
      (FloatOps.mulf (F := Ideal) (φ := .f32) Cert.Tail.half
        (FloatOps.hostDivf (F := Ideal) (φ := .f32)
          (PairSpec.zero + ∑ I : Fin 16, Cert.Acc.rowHinge m c I.val)
          (max (PairSpec.zero + ∑ I : Fin 16, Cert.Acc.rowCount m c I.val) PairSpec.one)))
      (FloatOps.mulf (F := Ideal) (φ := .f32) Cert.Tail.half
        (Cert.ReferenceIdeal.Read.val_main_v13 (F := Ideal) (m ((c : Thread nD τ).loc main_arg0)) (m ((c : Thread nD τ).loc main_arg1)) i)) = _
  rw [Cert.Acc.hinge_total, Cert.Acc.count_total, clamp_count]
  rfl

/-- The tiled program's run, read: the result at the common result, the arguments unchanged. -/
theorem kernel_run : θ_run defs (onTc (τ := τ) (main (F := Ideal))) ⟨m, fun _ => 0, ρ⟩ fun r => ∀ c : Dev nD,
      r.2.mem ((c.tc : Thread nD τ).loc main_v30) = G (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v30 (Pipeline.mem_restRefs_of main_v30 (by decide) (by decide))).trans (kernel_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end

end Cert.Result

end
-- ==== Proof.lean ====
/-
  A ranking-plus-regression loss of 8192 samples, computed two ways, ends at one value on the extended reals.

  With scores p, survival times t and event flags e (each of length 8192), an ordered pair (i, j) counts when
  t j > t i and e i = 1. The ranking term is the sum of max (1 - p j + p i, 0)^2 over the counted pairs divided by the
  number of counted pairs (at least 1); the regression term is the mean of the squared differences p - t, a
  difference clipped at 0 from below where e = 0; the loss is half of each.

  One program forms the pair sums over the whole 8192-by-8192 plane at once and counts the pairs with a 32-bit integer
  sum. The other walks the plane in 16-by-4 tiles of 512 rows by 2048 columns, applies the event condition as a 0/1
  factor on each row's partial sum, keeps running totals over a row tile's four column tiles, writes one total per
  row tile, and sums the sixteen totals; it counts pairs by the same sums of 0/1 reals. They agree because a finite
  sum of extended reals may be regrouped freely, because x * 1 = x and x * 0 = 0 for every extended real (so the 0/1
  factor may be moved inside a row's sum), and because a sum of at most 2^26 ones cannot wrap in 32 bits. No finiteness
  of the inputs is used. The regression term is the same chain of operations in both programs.
-/
import proofs.«158161_j49297634624085_2_alg».proof.Defs
import proofs.«158161_j49297634624085_2_alg».proof.Proof.Gen.Kernel
import proofs.«158161_j49297634624085_2_alg».proof.Proof.Gen.Kernel.Skeleton
import proofs.«158161_j49297634624085_2_alg».proof.Proof.Gen.Kernel.Launch
import proofs.«158161_j49297634624085_2_alg».proof.Proof.Gen.Kernel.Points
import proofs.«158161_j49297634624085_2_alg».proof.Proof.Gen.Kernel.Frame
import proofs.«158161_j49297634624085_2_alg».proof.Proof.Gen.KernelIdeal
import proofs.«158161_j49297634624085_2_alg».proof.Proof.Gen.KernelIdeal.Skeleton
import proofs.«158161_j49297634624085_2_alg».proof.Proof.Gen.KernelIdeal.Launch
import proofs.«158161_j49297634624085_2_alg».proof.Proof.Gen.KernelIdeal.Points
import proofs.«158161_j49297634624085_2_alg».proof.Proof.Gen.KernelIdeal.Frame
import proofs.«158161_j49297634624085_2_alg».proof.Proof.Gen.ReferenceIdeal
import proofs.«158161_j49297634624085_2_alg».proof.Proof.Gen.ReferenceIdeal.Run
import proofs.«158161_j49297634624085_2_alg».proof.Proof.Gen.ReferenceIdeal.Read
import proofs.«158161_j49297634624085_2_alg».proof.Proof.Gen.Pre_finite_inputs
import proofs.«158161_j49297634624085_2_alg».proof.Proof.Result
import Idealize.ShloMosaic.Adequacy
import Idealize.ShloMosaic.Init

noncomputable section

namespace Cert.Proof

open Idealize.ShloMosaic Idealize.SL.Sem

/-- The tiled program, at the word level, runs and leaves its arguments as they were. -/
theorem frame_kernel : @Cert.frame_Kernel Cert.Kernel.Gen.facts Cert.Pre_finite_inputs.Gen.facts :=
  fun m ρ _ => Cert.Kernel.Gen.frame m ρ

/-- So does its reading on the extended reals. -/
theorem frame_kernelIdeal : @Cert.frame_KernelIdeal Cert.KernelIdeal.Gen.facts Cert.Pre_finite_inputs.Gen.facts :=
  fun m ρ _ => Cert.KernelIdeal.Gen.frame m ρ

/-- The reference runs and leaves its arguments as they were: its run, the result's value dropped. -/
theorem frame_reference : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Value.run (F := Ideal) m ρ)

/-- Nothing was rewritten on the way to the extended reals, so there is nothing to preserve. -/
theorem preserves : Cert.preserves_Kernel_KernelIdeal := trivial

/-- From memories that agree on the two arguments, both programs end with the common result. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.Result.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), Cert.Result.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v43_eq, (hagree c).1, (hagree c).2]
  exact Cert.Result.ref_eq _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
